-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S4x2048x1024, .bf16⟩
  | .hbm, ⟨11, _⟩ => ⟨S8192x1024, .bf16⟩
  | .hbm, ⟨12, _⟩ => ⟨S4x2048x1024, .bf16⟩
  | .hbm, ⟨13, _⟩ => ⟨S8192x1024, .bf16⟩
  | .hbm, ⟨14, _⟩ => ⟨S4x2048x1024, .bf16⟩
  | .hbm, ⟨15, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1x512x1024, .f32⟩
  | .local _ .vmem, ⟨22, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S1024x1024_S1024x1024_S1024x1024_1_1_0_0_n_n_wf : DotDims.WF S1024x1024 S1024x1024 S1024x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .bf16 = 32 ∨ (Rect.block (s := S8192x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S4x2048x1024.size a
  hwx3_0 : ∀ i : grid3.Coords, EltTy.bits .bf16 = 32 ∨ (Rect.block (s := S4x2048x1024) S1x512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x1024.size a
  hwx3_1 : ∀ i : grid3.Coords, EltTy.bits .bf16 = 32 ∨ (Rect.block (s := S4x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S4x2048x1024.size a
  hwx3_2 : ∀ i : grid3.Coords, EltTy.bits .bf16 = 32 ∨ (Rect.block (s := S4x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x1024.size a ≤ S4x2048x1024.size a
  hwx3_3 : ∀ i : grid3.Coords, EltTy.bits .f32 = 32 ∨ (Rect.block (s := S4x2048x1024) S1x512x1024.size (cc3_transform_3 i) (hinb3_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v4) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x2048, .f32⟩
  | .hbm, ⟨10, _⟩ => ⟨S_, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  The mathematics both programs compute, over the extended reals, as functions of the six argument arrays.

  A projection is `y[b, s, o] = ∑ e, x[b, s, e] · w[o, e]` (a linear map by the transposed weight matrix). The
  attention of projected queries, keys and values is, for batch `b` and query row `i`: the scaled scores
  `s[j] = (∑ e, q[b, i, e] · k[b, j, e]) · 2⁻⁵`, their maximum `M` over `j` (a fold of `max` from `-∞`), the weights
  `exp (s[j] - M)`, their sum `L`, and the output `o[b, i, e] = ∑ j, (exp (s[j] - M) / L) · v[b, j, e]`.
  The same formulas are stated for the row-merged `[8192, 1024]` layout of a projection, with the row-major
  identification `r = 2048 · b + s` between the two layouts.
-/
import Idealize.ShloMosaic.PureOps.Ideal
import Idealize.ShloMosaic.Lib.ValueIdx

noncomputable section

open Idealize.ShloMosaic Idealize.ShloMosaic.ValueIdx

namespace Cert.Attn

/-- A `[4, 2048, 1024]` array of extended reals: batch, sequence position, feature. -/
abbrev A3 : Type := (⟨3, ![4, 2048, 1024]⟩ : Shape).Idx → EReal
/-- A `[8192, 1024]` array: the same with batch and position merged, row `2048 · b + s`. -/
abbrev A2 : Type := (⟨2, ![8192, 1024]⟩ : Shape).Idx → EReal
/-- A `[1024, 1024]` weight matrix, stored `[out, in]`. -/
abbrev W2 : Type := (⟨2, ![1024, 1024]⟩ : Shape).Idx → EReal

/-- An array from a function of its three literal coordinates. -/
def arr3 (f : Fin 4 → Fin 2048 → Fin 1024 → EReal) : A3 :=
  fun i => f ⟨(i 0).val, (i 0).isLt⟩ ⟨(i 1).val, (i 1).isLt⟩ ⟨(i 2).val, (i 2).isLt⟩

theorem arr3_ix3 (f : Fin 4 → Fin 2048 → Fin 1024 → EReal) (b : Fin 4) (s : Fin 2048) (e : Fin 1024) :
    arr3 f (ix3 b s e) = f b s e := rfl

/-- An array from a function of its two literal coordinates. -/
def arr2 (f : Fin 8192 → Fin 1024 → EReal) : A2 :=
  fun i => f ⟨(i 0).val, (i 0).isLt⟩ ⟨(i 1).val, (i 1).isLt⟩

theorem arr2_ix2 (f : Fin 8192 → Fin 1024 → EReal) (r : Fin 8192) (o : Fin 1024) :
    arr2 f (ix2 r o) = f r o := rfl

/-- One entry of a projection `x · wᵀ`: the sum over the input feature. -/
def projAt (x : A3) (w : W2) (b : Fin 4) (s : Fin 2048) (o : Fin 1024) : EReal :=
  ∑ e : Fin 1024, x (ix3 b s e) * w (ix2 o e)

/-- The projection `x · wᵀ` of a `[4, 2048, 1024]` array. -/
def proj (x : A3) (w : W2) : A3 := arr3 (projAt x w)

/-- One entry of the same projection in the row-merged layout. -/
def proj2At (x : A2) (w : W2) (r : Fin 8192) (o : Fin 1024) : EReal :=
  ∑ e : Fin 1024, x (ix2 r e) * w (ix2 o e)

/-- The projection `x · wᵀ` of a `[8192, 1024]` array. -/
def proj2 (x : A2) (w : W2) : A2 := arr2 (proj2At x w)

/-- The scaled score of query row `i` against key row `j` in batch `b`: the dot product times `2⁻⁵` (the word `0x3D000000`). -/
def scoreAt (q k : A3) (b : Fin 4) (i j : Fin 2048) : EReal :=
  (∑ e : Fin 1024, q (ix3 b i e) * k (ix3 b j e)) * Ideal.ofBits .f32 0x3D000000#32

/-- The maximum of a row of scores: the fold of `max` from `-∞` (the word `0xFF800000`). -/
def rowMax (s : Fin 2048 → EReal) : EReal :=
  (Finset.univ : Finset (Fin 2048)).fold max (Ideal.ofBits .f32 0xFF800000#32) s

/-- The unnormalised softmax weight of entry `j` of a row. -/
def expRow (s : Fin 2048 → EReal) (j : Fin 2048) : EReal := Ideal.exp (s j - rowMax s)

/-- The softmax weight of entry `j` of a row: the exponential over the row's sum of exponentials. -/
def attnRow (s : Fin 2048 → EReal) (j : Fin 2048) : EReal :=
  Ideal.div (expRow s j) (∑ j' : Fin 2048, expRow s j')

/-- One entry of the attention output: the softmax-weighted sum of the value rows. -/
def outAt (q k v : A3) (b : Fin 4) (i : Fin 2048) (e : Fin 1024) : EReal :=
  ∑ j : Fin 2048, attnRow (scoreAt q k b i) j * v (ix3 b j e)

/-- One entry of the attention output computed from one block of queries (`[1, 512, 1024]`) against a whole batch of
    keys and values (`[1, 2048, 1024]` each): the same formula with the block's own coordinates. -/
def blockOut (x0 : (⟨3, ![1, 512, 1024]⟩ : Shape).Idx → EReal) (x1 x2 : (⟨3, ![1, 2048, 1024]⟩ : Shape).Idx → EReal)
    (p : Fin 512) (e : Fin 1024) : EReal :=
  ∑ j : Fin 2048, attnRow (fun j' : Fin 2048 =>
    (∑ e' : Fin 1024, x0 (ix3 (0 : Fin 1) p e') * x1 (ix3 (0 : Fin 1) j' e')) * Ideal.ofBits .f32 0x3D000000#32) j
      * x2 (ix3 (0 : Fin 1) j e)

/-- Softmax attention of projected queries, keys and values. -/
def attention (q k v : A3) : A3 := arr3 (outAt q k v)

/-- The whole computation: three projections, then attention. -/
def G (x0 x1 x2 : A3) (x3 x4 x5 : W2) : A3 := attention (proj x0 x3) (proj x1 x4) (proj x2 x5)

end Cert.Attn

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.RefValue.lean ====
/-
  The reference program computes the specification.

  The reference is a chain of host operations: three projections (each a contraction with a transposed weight
  matrix), the batched product of queries with keys, a division of every score by the square root of 1024, a
  maximum over each row of scores, the exponential of each score minus its row's maximum, the row sums of those
  exponentials, the quotient of each exponential by its row sum, and the batched product of these weights with the
  values. This module reads each stage at an index with literal coordinates and identifies it with the matching
  formula of the specification, ending in the equality of the last stage with the specified function of the six
  argument arrays.

  Two facts are arithmetic rather than index bookkeeping. Dividing by the square root of 1024 is multiplying by
  one thirty-second, which is what the specification's score does; this holds for every extended real, the
  infinities included. And the reference takes the maximum of minus infinity with a fold of maxima that itself
  starts from minus infinity, which is that fold again.
-/
import proofs.«157109_j67714454388781_2_alg».proof.Proof.Gen.ReferenceIdeal.Read
import proofs.«157109_j67714454388781_2_alg».proof.Proof.Spec
import proofs.«157109_j67714454388781_2_alg».proof.Proof.LibColumn

set_option maxRecDepth 16384

noncomputable section

open Idealize.ShloMosaic Idealize.ShloMosaic.TcCoe Idealize.SL.Sem Idealize.ShloMosaic.ValueIdx
open Cert.ReferenceIdeal Cert.ReferenceIdeal.Gen Cert.ReferenceIdeal.Read

namespace Cert.RefValue

/-! ### The two constants -/

/-- The word `0x44800000` denotes the real number 1024. -/
theorem ofBits_1024 : Ideal.ofBits .f32 0x44800000#32 = ((1024 : ℝ) : EReal) := by
  simp [Ideal.ofBits, Ideal.ieee, -EReal.coe_mul]; norm_num

/-- The word `0x3D000000` denotes one thirty-second. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Real.sqrt 1024 = 32 := by
  rw [show (1024 : ℝ) = 32 ^ 2 by norm_num, Real.sqrt_sq (by norm_num)]

/-! ### A maximum over the last axis of a rank-3 array -/

/-- A reduced pair of coordinates with the last coordinate put back is the triple. -/
theorem lift_last {n m p : ℕ} (h : (⟨3, ![n, m, p]⟩ : Shape).Reduces [2] (⟨2, ![n, m]⟩ : Shape)) (b : Fin n) (i : Fin m)
    (k : Fin ((⟨3, ![n, m, p]⟩ : Shape).size 2)) : h.lift (ix2 b i) k = ix3 b i (⟨k.val, k.isLt⟩ : Fin p) := by
  funext c; apply Fin.ext
  fin_cases c <;> rfl

/-- The host's reduce with a maximum body over the last axis of a rank-3 array, at `(b, i)`: the fold of `max` over
    that row from the initial value. -/
theorem hostReduce_max_last {n m p : ℕ} (x : FVec Ideal ⟨3, ![n, m, p]⟩ .f32) (init : (⟨0, ![]⟩ : Shape).Idx → EReal)
    (h' : (⟨3, ![n, m, p]⟩ : Shape).ReducesTo [2] (⟨2, ![n, m]⟩ : Shape))
    (h : (⟨3, ![n, m, p]⟩ : Shape).Reduces [2] (⟨2, ![n, m]⟩ : Shape))
    (hu : 0 < (⟨0, ![]⟩ : Shape).numel) (b : Fin n) (i : Fin m) :
    Host.reduce FloatOps.maximumf x init h' hu (ix2 b i)
      = (Finset.univ : Finset (Fin p)).fold max (init ix0) fun j => x (ix3 b i j) := by
  rw [Host.reduce_eq_fold_single FloatOps.maximumf x init h' h hu]
  have hf : (x ∘ h.lift (ix2 b i)) = fun k : Fin p => x (ix3 b i k) :=
    funext fun k => congrArg x (lift_last h b i k)
  have hi : init (Shape.Idx.first hu) = init ix0 := congrArg init (eq_ix0 _)
  rw [hi]
  exact congrArg (fun f => Finset.fold max (init ix0) f (Finset.univ : Finset (Fin p))) hf

/-! ### The stages of the reference, read at literal coordinates -/

section Stages

variable (x0 x1 x2 : (⟨S4x2048x1024, .f32⟩ : BufTy).Contents (Elt Ideal))
variable (x3 x4 x5 : (⟨S1024x1024, .f32⟩ : BufTy).Contents (Elt Ideal))

/-- Every index of a rank-3 array is a triple of literal coordinates. -/
theorem exists_ix3 {n0 n1 n2 : ℕ} (i : (⟨3, ![n0, n1, n2]⟩ : Shape).Idx) :
    ∃ (a : Fin n0) (b : Fin n1) (c : Fin n2), i = ix3 a b c := ⟨i 0, i 1, i 2, eq_ix3 i⟩

/-- The first projection is the specification's projection of the first argument by the fourth. -/
theorem v0_eq : val_main_v0 (F := Ideal) x0 x3 = Cert.Attn.proj x0 x3 := by
  funext i
  obtain ⟨b, s, o, rfl⟩ := exists_ix3 i
  rw [val_main_v0_apply]
  show _ = Cert.Attn.projAt x0 x3 b s o
  unfold Cert.Attn.projAt
  refine Finset.sum_congr rfl fun k _ => ?_
  have el : lidx_main_v0 (ix3 b s o) k = ix3 b s k :=
    funext fun a => Fin.ext (by match a with | ⟨0, _⟩ => rfl | ⟨1, _⟩ => rfl | ⟨2, _⟩ => rfl)
  have er : ridx_main_v0 (ix3 b s o) k = ix2 o k :=
    funext fun a => Fin.ext (by match a with | ⟨0, _⟩ => rfl | ⟨1, _⟩ => rfl)
  rw [el, er]

/-- The second projection is the specification's projection of the second argument by the fifth. -/
theorem v1_eq : val_main_v1 (F := Ideal) x1 x4 = Cert.Attn.proj x1 x4 := by
  funext i
  obtain ⟨b, s, o, rfl⟩ := exists_ix3 i
  rw [val_main_v1_apply]
  show _ = Cert.Attn.projAt x1 x4 b s o
  unfold Cert.Attn.projAt
  refine Finset.sum_congr rfl fun k _ => ?_
  have el : lidx_main_v1 (ix3 b s o) k = ix3 b s k :=
    funext fun a => Fin.ext (by match a with | ⟨0, _⟩ => rfl | ⟨1, _⟩ => rfl | ⟨2, _⟩ => rfl)
  have er : ridx_main_v1 (ix3 b s o) k = ix2 o k :=
    funext fun a => Fin.ext (by match a with | ⟨0, _⟩ => rfl | ⟨1, _⟩ => rfl)
  rw [el, er]

/-- The third projection is the specification's projection of the third argument by the sixth. -/
theorem v2_eq : val_main_v2 (F := Ideal) x2 x5 = Cert.Attn.proj x2 x5 := by
  funext i
  obtain ⟨b, s, o, rfl⟩ := exists_ix3 i
  rw [val_main_v2_apply]
  show _ = Cert.Attn.projAt x2 x5 b s o
  unfold Cert.Attn.projAt
  refine Finset.sum_congr rfl fun k _ => ?_
  have el : lidx_main_v2 (ix3 b s o) k = ix3 b s k :=
    funext fun a => Fin.ext (by match a with | ⟨0, _⟩ => rfl | ⟨1, _⟩ => rfl | ⟨2, _⟩ => rfl)
  have er : ridx_main_v2 (ix3 b s o) k = ix2 o k :=
    funext fun a => Fin.ext (by match a with | ⟨0, _⟩ => rfl | ⟨1, _⟩ => rfl)
  rw [el, er]

/-- The divisor of the scores is 32 at every index: the square root of the word that denotes 1024. -/
theorem v5_at (i : S4x2048x2048.Idx) : val_main_v5 (F := Ideal) i = ((32 : ℝ) : EReal) := by
  rw [val_main_v5_apply, val_main_v4_apply, val_main_cst_apply, Ideal.ofBits_def, Ideal.hostUnary_sqrt_def,
    ofBits_1024, Ideal.sqrt_coe, if_neg (by norm_num), sqrt_1024]

/-- The unscaled score at `(b, i, j)`: the dot product of query row `i` and key row `j` of batch `b`. -/
theorem v3_at (b : Fin 4) (i j : Fin 2048) :
    val_main_v3 (F := Ideal) x0 x1 x3 x4 (ix3 b i j)
      = ∑ e : Fin 1024, Cert.Attn.proj x0 x3 (ix3 b i e) * Cert.Attn.proj x1 x4 (ix3 b j e) := by
  rw [val_main_v3_apply, v0_eq, v1_eq]
  refine Finset.sum_congr rfl fun k _ => ?_
  have el : lidx_main_v3 (ix3 b i j) k = ix3 b i k :=
    funext fun a => Fin.ext (by match a with | ⟨0, _⟩ => rfl | ⟨1, _⟩ => rfl | ⟨2, _⟩ => rfl)
  have er : ridx_main_v3 (ix3 b i j) k = ix3 b j k :=
    funext fun a => Fin.ext (by match a with | ⟨0, _⟩ => rfl | ⟨1, _⟩ => rfl | ⟨2, _⟩ => rfl)
  rw [el, er]

/-- The scaled score: dividing by 32 is multiplying by the word that denotes one thirty-second. -/
theorem v6_at (b : Fin 4) (i j : Fin 2048) :
    val_main_v6 (F := Ideal) x0 x1 x3 x4 (ix3 b i j)
      = Cert.Attn.scoreAt (Cert.Attn.proj x0 x3) (Cert.Attn.proj x1 x4) b i j := by
  rw [val_main_v6_apply, Ideal.hostDivf_def, v5_at, Ideal.div_coe (by norm_num : (32 : ℝ) ≠ 0), v3_at]
  unfold Cert.Attn.scoreAt
  rw [ofBits_inv32]

/-- The reduce's maximum of row `(b, i)`: the fold of `max` over the scaled scores from the word for minus infinity. -/
theorem v7_at (b : Fin 4) (i : Fin 2048) :
    val_main_v7 (F := Ideal) x0 x1 x3 x4 (ix2 b i)
      = Cert.Attn.rowMax (Cert.Attn.scoreAt (Cert.Attn.proj x0 x3) (Cert.Attn.proj x1 x4) b i) := by
  unfold val_main_v7
  refine (hostReduce_max_last (val_main_v6 (F := Ideal) x0 x1 x3 x4) (val_main_cst_0 (F := Ideal))
    reducesTo_S4x2048x2048_S4x2048_d2 (by decide) h_S_ b i).trans ?_
  unfold Cert.Attn.rowMax
  rw [val_main_cst_0_apply, Ideal.ofBits_def]
  have hf : (fun j : Fin 2048 => val_main_v6 (F := Ideal) x0 x1 x3 x4 (ix3 b i j))
      = Cert.Attn.scoreAt (Cert.Attn.proj x0 x3) (Cert.Attn.proj x1 x4) b i :=
    funext fun j => v6_at x0 x1 x3 x4 b i j
  rw [hf]

/-- The row maximum the reference subtracts: the maximum of minus infinity with the fold is the fold. -/
theorem v9_at (b : Fin 4) (i : Fin 2048) :
    val_main_v9 (F := Ideal) x0 x1 x3 x4 (ix2 b i)
      = Cert.Attn.rowMax (Cert.Attn.scoreAt (Cert.Attn.proj x0 x3) (Cert.Attn.proj x1 x4) b i) := by
  rw [val_main_v9_apply, Ideal.maximumf_def, val_main_v8_apply, val_main_cst_1_apply, Ideal.ofBits_def, v7_at]
  unfold Cert.Attn.rowMax
  exact max_eq_right ((Finset.le_fold_max _).mpr (Or.inl le_rfl))

/-- The row maximum spread back over the row. -/
theorem v11_at (b : Fin 4) (i j : Fin 2048) :
    val_main_v11 (F := Ideal) x0 x1 x3 x4 (ix3 b i j)
      = Cert.Attn.rowMax (Cert.Attn.scoreAt (Cert.Attn.proj x0 x3) (Cert.Attn.proj x1 x4) b i) := by
  rw [val_main_v11_apply, val_main_v10_apply]
  have e : idx_main_v10 (idx_main_v11 (ix3 b i j)) = ix2 b i :=
    funext fun a => Fin.ext (by match a with | ⟨0, _⟩ => rfl | ⟨1, _⟩ => rfl)
  rw [e, v9_at]

/-- The exponential of a score minus its row's maximum. -/
theorem v13_at (b : Fin 4) (i j : Fin 2048) :
    val_main_v13 (F := Ideal) x0 x1 x3 x4 (ix3 b i j)
      = Cert.Attn.expRow (Cert.Attn.scoreAt (Cert.Attn.proj x0 x3) (Cert.Attn.proj x1 x4) b i) j := by
  rw [val_main_v13_apply, Ideal.hostUnary_exp_def, val_main_v12_apply, Ideal.subf_def, v6_at, v11_at]
  rfl

/-- The row sum of the exponentials: the sum starts from the word for zero. -/
theorem v14_at (b : Fin 4) (i : Fin 2048) :
    val_main_v14 (F := Ideal) x0 x1 x3 x4 (ix2 b i)
      = ∑ j : Fin 2048, Cert.Attn.expRow (Cert.Attn.scoreAt (Cert.Attn.proj x0 x3) (Cert.Attn.proj x1 x4) b i) j := by
  rw [val_main_v14_apply, val_main_cst_2_apply, Ideal.ofBits_def, Ideal.ofBits_zero_f32, zero_add]
  refine Finset.sum_congr rfl fun k _ => ?_
  have e : idx_main_v14 (ix2 b i) k = ix3 b i k :=
    funext fun a => Fin.ext (by match a with | ⟨0, _⟩ => rfl | ⟨1, _⟩ => rfl | ⟨2, _⟩ => rfl)
  rw [e, v13_at]

/-- The row sum spread back over the row. -/
theorem v16_at (b : Fin 4) (i j : Fin 2048) :
    val_main_v16 (F := Ideal) x0 x1 x3 x4 (ix3 b i j)
      = ∑ j' : Fin 2048, Cert.Attn.expRow (Cert.Attn.scoreAt (Cert.Attn.proj x0 x3) (Cert.Attn.proj x1 x4) b i) j' := by
  rw [val_main_v16_apply, val_main_v15_apply]
  have e : idx_main_v15 (idx_main_v16 (ix3 b i j)) = ix2 b i :=
    funext fun a => Fin.ext (by match a with | ⟨0, _⟩ => rfl | ⟨1, _⟩ => rfl)
  rw [e, v14_at]

/-- The softmax weight: the exponential over its row's sum. -/
theorem v17_at (b : Fin 4) (i j : Fin 2048) :
    val_main_v17 (F := Ideal) x0 x1 x3 x4 (ix3 b i j)
      = Cert.Attn.attnRow (Cert.Attn.scoreAt (Cert.Attn.proj x0 x3) (Cert.Attn.proj x1 x4) b i) j := by
  rw [val_main_v17_apply, Ideal.hostDivf_def, v13_at, v16_at]
  rfl

/-- The output at `(b, i, e)`: the weights of row `(b, i)` against column `e` of the projected values. -/
theorem v18_at (b : Fin 4) (i : Fin 2048) (e : Fin 1024) :
    val_main_v18 (F := Ideal) x0 x1 x2 x3 x4 x5 (ix3 b i e)
      = Cert.Attn.outAt (Cert.Attn.proj x0 x3) (Cert.Attn.proj x1 x4) (Cert.Attn.proj x2 x5) b i e := by
  rw [val_main_v18_apply, v2_eq]
  unfold Cert.Attn.outAt
  refine Finset.sum_congr rfl fun k _ => ?_
  have el : lidx_main_v18 (ix3 b i e) k = ix3 b i k :=
    funext fun a => Fin.ext (by match a with | ⟨0, _⟩ => rfl | ⟨1, _⟩ => rfl | ⟨2, _⟩ => rfl)
  have er : ridx_main_v18 (ix3 b i e) k = ix3 b k e :=
    funext fun a => Fin.ext (by match a with | ⟨0, _⟩ => rfl | ⟨1, _⟩ => rfl | ⟨2, _⟩ => rfl)
  rw [el, er, v17_at]

end Stages

/-! ### The reference is the specification -/

open Cert.ReferenceIdeal in
/-- The reference's result, as a function of the six argument arrays, is the specified one: three projections, then
    softmax attention of the projected queries, keys and values. -/
theorem ref_eq (x0 x1 x2 : (⟨S4x2048x1024, .f32⟩ : BufTy).Contents (Elt Ideal)) (x3 x4 x5 : (⟨S1024x1024, .f32⟩ : BufTy).Contents (Elt Ideal)) :
    Cert.ReferenceIdeal.Read.val_main_v18 (F := Ideal) x0 x1 x2 x3 x4 x5 = Cert.Attn.G x0 x1 x2 x3 x4 x5 := by
  funext i
  obtain ⟨b, q, e, rfl⟩ := exists_ix3 i
  rw [v18_at]
  rfl

end Cert.RefValue

end
-- ==== Proof.ProjValue0.lean ====
/-
  The first projection of the kernel, as one array.

  The region's grid has eight points. At point `t` the body reads rows `1024 · t … 1024 · t + 1023` of the
  row-merged input `x : [8192, 1024]` and the whole weight matrix `w : [1024, 1024]` (stored `[out, in]`),
  contracts the LAST axis of both, and writes the `[1024, 1024]` result back as the same rows of the output.
  Over the extended reals the format changes are the identity, so entry `(p, o)` of the block written at `t` is
  `∑ e, x[1024 · t + p, e] · w[o, e]`: rows `1024 · t …` of the projection `x · wᵀ`. The eight row blocks tile
  the `8192` rows, so the output array ends holding the projection, whatever it held before.
-/
import proofs.«157109_j67714454388781_2_alg».proof.Proof.Gen.KernelIdeal.Frame
import proofs.«157109_j67714454388781_2_alg».proof.Proof.Spec
import Idealize.ShloMosaic.Lib.Pipeline.Value
import Idealize.ShloMosaic.Lib.ValueIdx
import Idealize.ShloMosaic.PureOps.Ideal.Laws

noncomputable section

namespace Cert.KernelIdeal.ProjValue0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The block product at an index -/

/-- In the block product the left factor is read at the output's row … -/
theorem lhs_row (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- … and at the summation index along its last axis. -/
theorem lhs_contr (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k

/-- The right factor is read at the output's COLUMN as its row (the weight is stored `[out, in]`) … -/
theorem rhs_row (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- … and at the summation index along its last axis too: both operands are contracted over their last axis. -/
theorem rhs_contr (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- What the body stores, at entry `(p, q)`: the narrowings being the identity over the extended reals and the
    accumulator zero, it is the sum over the shared last axis `∑ e, x0[p, e] · x1[q, e]`. -/
theorem pay_apply (x0 x1 : Vec Ideal S1024x1024 .f32) (p q : Fin 1024) :
    k0_pay1 (F := Ideal) x0 x1 (ix2 p q) = ∑ e : Fin 1024, x0 (ix2 p e) * x1 (ix2 q e) := by
  unfold k0_pay1
  rw [truncf_apply]
  simp only [matmul]
  rw [Ideal.matmul_constant_zero_apply,
    ← Equiv.sum_comp (ValueIdx.contrEquiv1 dot_S1024x1024_S1024x1024_S1024x1024_1_1_0_0_n_n 1024 rfl rfl).symm]
  refine Finset.sum_congr rfl fun e _ => ?_
  rw [truncf_apply, truncf_apply, shapeCast_self]
  have he := ValueIdx.contrEquiv1_symm_val dot_S1024x1024_S1024x1024_S1024x1024_1_1_0_0_n_n 1024 rfl rfl e
  have el : dot_S1024x1024_S1024x1024_S1024x1024_1_1_0_0_n_n.lhsIdx (ix2 p q)
      ((ValueIdx.contrEquiv1 dot_S1024x1024_S1024x1024_S1024x1024_1_1_0_0_n_n 1024 rfl rfl).symm e) = ix2 p e :=
    funext fun a => Fin.ext (by
      match a with
      | ⟨0, _⟩ => exact lhs_row _ _
      | ⟨1, _⟩ => exact (lhs_contr _ _).trans he)
  have er : dot_S1024x1024_S1024x1024_S1024x1024_1_1_0_0_n_n.rhsIdx (ix2 p q)
      ((ValueIdx.contrEquiv1 dot_S1024x1024_S1024x1024_S1024x1024_1_1_0_0_n_n 1024 rfl rfl).symm e) = ix2 q e :=
    funext fun a => Fin.ext (by
      match a with
      | ⟨0, _⟩ => exact rhs_row _ _
      | ⟨1, _⟩ => exact (rhs_contr _ _).trans he)
  rw [el, er]

/-- So if the first block's row `y 0` is row `i 0` of an array `X` and the second block's row `y 1` is row `i 1` of a
    matrix `W`, entry `y` of what the body stores is entry `i` of the projection `X · Wᵀ`. -/
theorem block_proj (x0 x1 : Vec Ideal S1024x1024 .f32) (X : Cert.Attn.A2) (W : Cert.Attn.W2)
    (y : S1024x1024.Idx) (i : S8192x1024.Idx)
    (h0 : ∀ e : Fin 1024, x0 (ix2 (y 0) e) = X (ix2 ⟨(i 0).val, (i 0).isLt⟩ e))
    (h1 : ∀ e : Fin 1024, x1 (ix2 (y 1) e) = W (ix2 ⟨(i 1).val, (i 1).isLt⟩ e)) :
    k0_pay1 (F := Ideal) x0 x1 y = Cert.Attn.proj2 X W i := by
  obtain ⟨p, q, rfl⟩ : ∃ (p q : Fin 1024), y = ix2 p q := ⟨y 0, y 1, eq_ix2 y⟩
  rw [pay_apply]
  show _ = Cert.Attn.proj2At X W ⟨(i 0).val, (i 0).isLt⟩ ⟨(i 1).val, (i 1).isLt⟩
  unfold Cert.Attn.proj2At
  exact Finset.sum_congr rfl fun e _ => by rw [← h0 e, ← h1 e]

/-! ## The blocks at a grid point -/

/-- The zero offsets of the body's one load and one store per buffer. -/
theorem origin_zero : (![0, 0] : Fin 2 → Nat) = fun _ => 0 := funext fun a => by fin_cases a <;> rfl

/-- The three index maps over the eight grid points: the input's and the output's block index is `(t, 0)`, the
    weight's is `(0, 0)` at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input's block at point `t` is rows `1024 · t … 1024 · t + 1023` of the input array. -/
theorem xblk_apply (c : Dev nD) (t : Fin cfg0.N) (y : S1024x1024.Idx) (k : S8192x1024.Idx)
    (hk0 : (k 0).val = 1024 * t.val + (y 0).val) (hk1 : (k 1).val = (y 1).val) :
    (iblk0 V c 0 t : Vec Ideal S1024x1024 .f32) y = (V c main_v0 : S8192x1024.Idx → Elt Ideal .f32) k := by
  obtain ⟨e0, e1, -, -, -, -⟩ := idx_facts t
  unfold iblk0
  rw [View.read_apply]
  show V c main_v0 _ = V c main_v0 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The weight's block at every point is the whole weight matrix. -/
theorem wblk_apply (c : Dev nD) (t : Fin cfg0.N) (y : S1024x1024.Idx) :
    (iblk0 V c 1 t : Vec Ideal S1024x1024 .f32) y = (V c main_arg3 : S1024x1024.Idx → Elt Ideal .f32) y := by
  obtain ⟨-, -, e0, e1, -, -⟩ := idx_facts t
  unfold iblk0
  rw [View.read_apply]
  show V c main_arg3 _ = V c main_arg3 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-! ## From the blocks to the array -/

/-- What point `t` writes back is block `t` of the projection of the input array by the weight matrix, both as the
    region finds them. -/
theorem flushed_eq (c : Dev nD) (t : Fin cfg0.N) :
    (dat0 V c).flushed 2 t
      = ((cfg0.win 2).blk t).view.read (Elt Ideal) (Cert.Attn.proj2 (V c main_v0) (V c main_arg3)) := by
  show (cfg0.win 2).cut (grid0.coords t) ((dat0 V c).after 2 t) = _
  rw [after0_2]
  unfold out0_2
  rw [View.canon_unit_zero origin_zero]
  simp only [View.ld_unit_zero (S := S1024x1024) origin_zero]
  obtain ⟨-, -, -, -, e0, e1⟩ := idx_facts t
  funext y
  show k0_pay1 (F := Ideal) (iblk0 V c 0 t) (iblk0 V c 1 t) y
    = Cert.Attn.proj2 (V c main_v0) (V c main_arg3) (((cfg0.win 2).blk t).view.emb y)
  refine block_proj _ _ _ _ y _ (fun e => ?_) (fun e => ?_)
  · refine xblk_apply V c t _ _ ?_ rfl
    show win0_2.index t (0 : Fin 2) * 1024 + 1 * (y 0).val = 1024 * t.val + (y 0).val
    rw [e0]; omega
  · refine (wblk_apply V c t _).trans ?_
    congr 1
    funext a
    apply Fin.ext
    match a with
    | ⟨0, _⟩ => show (y 1).val = win0_2.index t (1 : Fin 2) * 1024 + 1 * (y 1).val; rw [e1]; omega
    | ⟨1, _⟩ => rfl

/-- An index of the output array is in point `t`'s block iff each coordinate is in the block's range on its axis. -/
theorem mem_blk (t : Fin cfg0.N) (i : S8192x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- Every index of the output array is in some point's block: row `r` is in the block of point `r / 1024`. -/
theorem cover (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 1024 ≤ (i 1).val ∧ (i 1).val < win0_2.index t (1 : Fin 2) * 1024 + 1024
    rw [e1]; omega

/-- The output array after the region: the projection `x · wᵀ` of the input array by the weight matrix. -/
theorem final0 (c : Dev nD) :
    (dat0 (F := Ideal) V c).arrAt 2 cfg0.N = Cert.Attn.proj2 (V c main_v0) (V c main_arg3) :=
  (dat0 V c).arrAt_eq_of_cover 2 _ (fun t _ => flushed_eq V c t) cover

end Cert.KernelIdeal.ProjValue0

end
-- ==== Proof.ProjValue1.lean ====
/-
  The second projection of the kernel, as one array.

  The region's grid has eight points. At point `t` the body reads rows `1024 · t … 1024 · t + 1023` of the
  row-merged input `x : [8192, 1024]` and the whole weight matrix `w : [1024, 1024]` (stored `[out, in]`),
  contracts the LAST axis of both, and writes the `[1024, 1024]` result back as the same rows of the output.
  Over the extended reals the format changes are the identity, so entry `(p, o)` of the block written at `t` is
  `∑ e, x[1024 · t + p, e] · w[o, e]`: rows `1024 · t …` of the projection `x · wᵀ`. The eight row blocks tile
  the `8192` rows, so the output array ends holding the projection, whatever it held before.
-/
import proofs.«157109_j67714454388781_2_alg».proof.Proof.Gen.KernelIdeal.Frame
import proofs.«157109_j67714454388781_2_alg».proof.Proof.Spec
import Idealize.ShloMosaic.Lib.Pipeline.Value
import Idealize.ShloMosaic.Lib.ValueIdx
import Idealize.ShloMosaic.PureOps.Ideal.Laws

noncomputable section

namespace Cert.KernelIdeal.ProjValue1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The block product at an index -/

/-- In the block product the left factor is read at the output's row … -/
theorem lhs_row (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- … and at the summation index along its last axis. -/
theorem lhs_contr (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k

/-- The right factor is read at the output's COLUMN as its row (the weight is stored `[out, in]`) … -/
theorem rhs_row (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- … and at the summation index along its last axis too: both operands are contracted over their last axis. -/
theorem rhs_contr (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- What the body stores, at entry `(p, q)`: the narrowings being the identity over the extended reals and the
    accumulator zero, it is the sum over the shared last axis `∑ e, x0[p, e] · x1[q, e]`. -/
theorem pay_apply (x0 x1 : Vec Ideal S1024x1024 .f32) (p q : Fin 1024) :
    k1_pay1 (F := Ideal) x0 x1 (ix2 p q) = ∑ e : Fin 1024, x0 (ix2 p e) * x1 (ix2 q e) := by
  unfold k1_pay1
  rw [truncf_apply]
  simp only [matmul]
  rw [Ideal.matmul_constant_zero_apply,
    ← Equiv.sum_comp (ValueIdx.contrEquiv1 dot_S1024x1024_S1024x1024_S1024x1024_1_1_0_0_n_n 1024 rfl rfl).symm]
  refine Finset.sum_congr rfl fun e _ => ?_
  rw [truncf_apply, truncf_apply, shapeCast_self]
  have he := ValueIdx.contrEquiv1_symm_val dot_S1024x1024_S1024x1024_S1024x1024_1_1_0_0_n_n 1024 rfl rfl e
  have el : dot_S1024x1024_S1024x1024_S1024x1024_1_1_0_0_n_n.lhsIdx (ix2 p q)
      ((ValueIdx.contrEquiv1 dot_S1024x1024_S1024x1024_S1024x1024_1_1_0_0_n_n 1024 rfl rfl).symm e) = ix2 p e :=
    funext fun a => Fin.ext (by
      match a with
      | ⟨0, _⟩ => exact lhs_row _ _
      | ⟨1, _⟩ => exact (lhs_contr _ _).trans he)
  have er : dot_S1024x1024_S1024x1024_S1024x1024_1_1_0_0_n_n.rhsIdx (ix2 p q)
      ((ValueIdx.contrEquiv1 dot_S1024x1024_S1024x1024_S1024x1024_1_1_0_0_n_n 1024 rfl rfl).symm e) = ix2 q e :=
    funext fun a => Fin.ext (by
      match a with
      | ⟨0, _⟩ => exact rhs_row _ _
      | ⟨1, _⟩ => exact (rhs_contr _ _).trans he)
  rw [el, er]

/-- So if the first block's row `y 0` is row `i 0` of an array `X` and the second block's row `y 1` is row `i 1` of a
    matrix `W`, entry `y` of what the body stores is entry `i` of the projection `X · Wᵀ`. -/
theorem block_proj (x0 x1 : Vec Ideal S1024x1024 .f32) (X : Cert.Attn.A2) (W : Cert.Attn.W2)
    (y : S1024x1024.Idx) (i : S8192x1024.Idx)
    (h0 : ∀ e : Fin 1024, x0 (ix2 (y 0) e) = X (ix2 ⟨(i 0).val, (i 0).isLt⟩ e))
    (h1 : ∀ e : Fin 1024, x1 (ix2 (y 1) e) = W (ix2 ⟨(i 1).val, (i 1).isLt⟩ e)) :
    k1_pay1 (F := Ideal) x0 x1 y = Cert.Attn.proj2 X W i := by
  obtain ⟨p, q, rfl⟩ : ∃ (p q : Fin 1024), y = ix2 p q := ⟨y 0, y 1, eq_ix2 y⟩
  rw [pay_apply]
  show _ = Cert.Attn.proj2At X W ⟨(i 0).val, (i 0).isLt⟩ ⟨(i 1).val, (i 1).isLt⟩
  unfold Cert.Attn.proj2At
  exact Finset.sum_congr rfl fun e _ => by rw [← h0 e, ← h1 e]

/-! ## The blocks at a grid point -/

/-- The zero offsets of the body's one load and one store per buffer. -/
theorem origin_zero : (![0, 0] : Fin 2 → Nat) = fun _ => 0 := funext fun a => by fin_cases a <;> rfl

/-- The three index maps over the eight grid points: the input's and the output's block index is `(t, 0)`, the
    weight's is `(0, 0)` at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input's block at point `t` is rows `1024 · t … 1024 · t + 1023` of the input array. -/
theorem xblk_apply (c : Dev nD) (t : Fin cfg1.N) (y : S1024x1024.Idx) (k : S8192x1024.Idx)
    (hk0 : (k 0).val = 1024 * t.val + (y 0).val) (hk1 : (k 1).val = (y 1).val) :
    (iblk1 V c 0 t : Vec Ideal S1024x1024 .f32) y = (V c main_v1 : S8192x1024.Idx → Elt Ideal .f32) k := by
  obtain ⟨e0, e1, -, -, -, -⟩ := idx_facts t
  unfold iblk1
  rw [View.read_apply]
  show V c main_v1 _ = V c main_v1 _
  congr 1
  funext a
  apply Fin.ext
  match a with
  | ⟨0, _⟩ => show win1_0.index t (0 : Fin 2) * 1024 + 1 * (y 0).val = (k 0).val; rw [e0, hk0]; omega
  | ⟨1, _⟩ => show win1_0.index t (1 : Fin 2) * 1024 + 1 * (y 1).val = (k 1).val; rw [e1, hk1]; omega

/-- The weight's block at every point is the whole weight matrix. -/
theorem wblk_apply (c : Dev nD) (t : Fin cfg1.N) (y : S1024x1024.Idx) :
    (iblk1 V c 1 t : Vec Ideal S1024x1024 .f32) y = (V c main_arg4 : S1024x1024.Idx → Elt Ideal .f32) y := by
  obtain ⟨-, -, e0, e1, -, -⟩ := idx_facts t
  unfold iblk1
  rw [View.read_apply]
  show V c main_arg4 _ = V c main_arg4 _
  congr 1
  funext a
  apply Fin.ext
  match a with
  | ⟨0, _⟩ => show win1_1.index t (0 : Fin 2) * 1024 + 1 * (y 0).val = (y 0).val; rw [e0]; omega
  | ⟨1, _⟩ => show win1_1.index t (1 : Fin 2) * 1024 + 1 * (y 1).val = (y 1).val; rw [e1]; omega

/-! ## From the blocks to the array -/

/-- What point `t` writes back is block `t` of the projection of the input array by the weight matrix, both as the
    region finds them. -/
theorem flushed_eq (c : Dev nD) (t : Fin cfg1.N) :
    (dat1 V c).flushed 2 t
      = ((cfg1.win 2).blk t).view.read (Elt Ideal) (Cert.Attn.proj2 (V c main_v1) (V c main_arg4)) := by
  show (cfg1.win 2).cut (grid1.coords t) ((dat1 V c).after 2 t) = _
  rw [after1_2]
  unfold out1_2
  rw [View.canon_unit_zero origin_zero]
  simp only [View.ld_unit_zero (S := S1024x1024) origin_zero]
  obtain ⟨-, -, -, -, e0, e1⟩ := idx_facts t
  funext y
  show k1_pay1 (F := Ideal) (iblk1 V c 0 t) (iblk1 V c 1 t) y
    = Cert.Attn.proj2 (V c main_v1) (V c main_arg4) (((cfg1.win 2).blk t).view.emb y)
  refine block_proj _ _ _ _ y _ (fun e => ?_) (fun e => ?_)
  · refine xblk_apply V c t _ _ ?_ rfl
    show win1_2.index t (0 : Fin 2) * 1024 + 1 * (y 0).val = 1024 * t.val + (y 0).val
    rw [e0]; omega
  · refine (wblk_apply V c t _).trans ?_
    congr 1
    funext a
    apply Fin.ext
    match a with
    | ⟨0, _⟩ => show (y 1).val = win1_2.index t (1 : Fin 2) * 1024 + 1 * (y 1).val; rw [e1]; omega
    | ⟨1, _⟩ => rfl

/-- An index of the output array is in point `t`'s block iff each coordinate is in the block's range on its axis. -/
theorem mem_blk (t : Fin cfg1.N) (i : S8192x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v5).slice (win1_2.rect t)).set ↔ _
  rw [View.set_slice_whole, Rect.mem_set_unit]
  exact Iff.rfl

/-- Every index of the output array is in some point's block: row `r` is in the block of point `r / 1024`. -/
theorem cover (i : S8192x1024.Idx) :
    ∃ t : Fin cfg1.N, (cfg1.win 2).flush t = true ∧ i ∈ ((cfg1.win 2).blk t).view.set := by
  have hi0 : (i 0).val < 8192 := (i 0).isLt
  have hi1 : (i 1).val < 1024 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨-, -, -, -, e0, e1⟩ := idx_facts t
  refine ⟨t, flush1_2 t, ?_⟩
  rw [mem_blk]
  intro a
  match a with
  | ⟨0, _⟩ =>
    show win1_2.index t (0 : Fin 2) * 1024 ≤ (i 0).val ∧ (i 0).val < win1_2.index t (0 : Fin 2) * 1024 + 1024
    rw [e0, ht]; omega
  | ⟨1, _⟩ =>
    show win1_2.index t (1 : Fin 2) * 1024 ≤ (i 1).val ∧ (i 1).val < win1_2.index t (1 : Fin 2) * 1024 + 1024
    rw [e1]; omega

/-- The output array after the region: the projection `x · wᵀ` of the input array by the weight matrix. -/
theorem final1 (c : Dev nD) :
    (dat1 (F := Ideal) V c).arrAt 2 cfg1.N = Cert.Attn.proj2 (V c main_v1) (V c main_arg4) :=
  (dat1 V c).arrAt_eq_of_cover 2 _ (fun t _ => flushed_eq V c t) cover

end Cert.KernelIdeal.ProjValue1

end
-- ==== Proof.ProjValue2.lean ====
/-
  The third projection of the kernel, as one array.

  The region's grid has eight points. At point `t` the body reads rows `1024 · t … 1024 · t + 1023` of the
  row-merged input `x : [8192, 1024]` and the whole weight matrix `w : [1024, 1024]` (stored `[out, in]`),
  contracts the LAST axis of both, and writes the `[1024, 1024]` result back as the same rows of the output.
  Over the extended reals the format changes are the identity, so entry `(p, o)` of the block written at `t` is
  `∑ e, x[1024 · t + p, e] · w[o, e]`: rows `1024 · t …` of the projection `x · wᵀ`. The eight row blocks tile
  the `8192` rows, so the output array ends holding the projection, whatever it held before.
-/
import proofs.«157109_j67714454388781_2_alg».proof.Proof.Gen.KernelIdeal.Frame
import proofs.«157109_j67714454388781_2_alg».proof.Proof.Spec
import Idealize.ShloMosaic.Lib.Pipeline.Value
import Idealize.ShloMosaic.Lib.ValueIdx
import Idealize.ShloMosaic.PureOps.Ideal.Laws

noncomputable section

namespace Cert.KernelIdeal.ProjValue2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The block product at an index -/

/-- In the block product the left factor is read at the output's row … -/
theorem lhs_row (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- … and at the summation index along its last axis. -/
theorem lhs_contr (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k

/-- The right factor is read at the output's COLUMN as its row (the weight is stored `[out, in]`) … -/
theorem rhs_row (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- … and at the summation index along its last axis too: both operands are contracted over their last axis. -/
theorem rhs_contr (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- What the body stores, at entry `(p, q)`: the narrowings being the identity over the extended reals and the
    accumulator zero, it is the sum over the shared last axis `∑ e, x0[p, e] · x1[q, e]`. -/
theorem pay_apply (x0 x1 : Vec Ideal S1024x1024 .f32) (p q : Fin 1024) :
    k2_pay1 (F := Ideal) x0 x1 (ix2 p q) = ∑ e : Fin 1024, x0 (ix2 p e) * x1 (ix2 q e) := by
  unfold k2_pay1
  rw [truncf_apply]
  simp only [matmul]
  rw [Ideal.matmul_constant_zero_apply,
    ← Equiv.sum_comp (ValueIdx.contrEquiv1 dot_S1024x1024_S1024x1024_S1024x1024_1_1_0_0_n_n 1024 rfl rfl).symm]
  refine Finset.sum_congr rfl fun e _ => ?_
  rw [truncf_apply, truncf_apply, shapeCast_self]
  have he := ValueIdx.contrEquiv1_symm_val dot_S1024x1024_S1024x1024_S1024x1024_1_1_0_0_n_n 1024 rfl rfl e
  have el : dot_S1024x1024_S1024x1024_S1024x1024_1_1_0_0_n_n.lhsIdx (ix2 p q)
      ((ValueIdx.contrEquiv1 dot_S1024x1024_S1024x1024_S1024x1024_1_1_0_0_n_n 1024 rfl rfl).symm e) = ix2 p e :=
    funext fun a => Fin.ext (by
      match a with
      | ⟨0, _⟩ => exact lhs_row _ _
      | ⟨1, _⟩ => exact (lhs_contr _ _).trans he)
  have er : dot_S1024x1024_S1024x1024_S1024x1024_1_1_0_0_n_n.rhsIdx (ix2 p q)
      ((ValueIdx.contrEquiv1 dot_S1024x1024_S1024x1024_S1024x1024_1_1_0_0_n_n 1024 rfl rfl).symm e) = ix2 q e :=
    funext fun a => Fin.ext (by
      match a with
      | ⟨0, _⟩ => exact rhs_row _ _
      | ⟨1, _⟩ => exact (rhs_contr _ _).trans he)
  rw [el, er]

/-- So if the first block's row `y 0` is row `i 0` of an array `X` and the second block's row `y 1` is row `i 1` of a
    matrix `W`, entry `y` of what the body stores is entry `i` of the projection `X · Wᵀ`. -/
theorem block_proj (x0 x1 : Vec Ideal S1024x1024 .f32) (X : Cert.Attn.A2) (W : Cert.Attn.W2)
    (y : S1024x1024.Idx) (i : S8192x1024.Idx)
    (h0 : ∀ e : Fin 1024, x0 (ix2 (y 0) e) = X (ix2 ⟨(i 0).val, (i 0).isLt⟩ e))
    (h1 : ∀ e : Fin 1024, x1 (ix2 (y 1) e) = W (ix2 ⟨(i 1).val, (i 1).isLt⟩ e)) :
    k2_pay1 (F := Ideal) x0 x1 y = Cert.Attn.proj2 X W i := by
  obtain ⟨p, q, rfl⟩ : ∃ (p q : Fin 1024), y = ix2 p q := ⟨y 0, y 1, eq_ix2 y⟩
  rw [pay_apply]
  show _ = Cert.Attn.proj2At X W ⟨(i 0).val, (i 0).isLt⟩ ⟨(i 1).val, (i 1).isLt⟩
  unfold Cert.Attn.proj2At
  exact Finset.sum_congr rfl fun e _ => by rw [← h0 e, ← h1 e]

/-! ## The blocks at a grid point -/

/-- The zero offsets of the body's one load and one store per buffer. -/
theorem origin_zero : (![0, 0] : Fin 2 → Nat) = fun _ => 0 := funext fun a => by fin_cases a <;> rfl

/-- The three index maps over the eight grid points: the input's and the output's block index is `(t, 0)`, the
    weight's is `(0, 0)` at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input's block at point `t` is rows `1024 · t … 1024 · t + 1023` of the input array. -/
theorem xblk_apply (c : Dev nD) (t : Fin cfg2.N) (y : S1024x1024.Idx) (k : S8192x1024.Idx)
    (hk0 : (k 0).val = 1024 * t.val + (y 0).val) (hk1 : (k 1).val = (y 1).val) :
    (iblk2 V c 0 t : Vec Ideal S1024x1024 .f32) y = (V c main_v2 : S8192x1024.Idx → Elt Ideal .f32) k := by
  obtain ⟨e0, e1, -, -, -, -⟩ := idx_facts t
  unfold iblk2
  rw [View.read_apply]
  show V c main_v2 _ = V c main_v2 _
  congr 1
  funext a
  apply Fin.ext
  match a with
  | ⟨0, _⟩ => show win2_0.index t (0 : Fin 2) * 1024 + 1 * (y 0).val = (k 0).val; rw [e0, hk0]; omega
  | ⟨1, _⟩ => show win2_0.index t (1 : Fin 2) * 1024 + 1 * (y 1).val = (k 1).val; rw [e1, hk1]; omega

/-- The weight's block at every point is the whole weight matrix. -/
theorem wblk_apply (c : Dev nD) (t : Fin cfg2.N) (y : S1024x1024.Idx) :
    (iblk2 V c 1 t : Vec Ideal S1024x1024 .f32) y = (V c main_arg5 : S1024x1024.Idx → Elt Ideal .f32) y := by
  obtain ⟨-, -, e0, e1, -, -⟩ := idx_facts t
  unfold iblk2
  rw [View.read_apply]
  show V c main_arg5 _ = V c main_arg5 _
  congr 1
  funext a
  apply Fin.ext
  match a with
  | ⟨0, _⟩ => show win2_1.index t (0 : Fin 2) * 1024 + 1 * (y 0).val = (y 0).val; rw [e0]; omega
  | ⟨1, _⟩ => show win2_1.index t (1 : Fin 2) * 1024 + 1 * (y 1).val = (y 1).val; rw [e1]; omega

/-! ## From the blocks to the array -/

/-- What point `t` writes back is block `t` of the projection of the input array by the weight matrix, both as the
    region finds them. -/
theorem flushed_eq (c : Dev nD) (t : Fin cfg2.N) :
    (dat2 V c).flushed 2 t
      = ((cfg2.win 2).blk t).view.read (Elt Ideal) (Cert.Attn.proj2 (V c main_v2) (V c main_arg5)) := by
  show (cfg2.win 2).cut (grid2.coords t) ((dat2 V c).after 2 t) = _
  rw [after2_2]
  unfold out2_2
  rw [View.canon_unit_zero origin_zero]
  simp only [View.ld_unit_zero (S := S1024x1024) origin_zero]
  obtain ⟨-, -, -, -, e0, e1⟩ := idx_facts t
  funext y
  show k2_pay1 (F := Ideal) (iblk2 V c 0 t) (iblk2 V c 1 t) y
    = Cert.Attn.proj2 (V c main_v2) (V c main_arg5) (((cfg2.win 2).blk t).view.emb y)
  refine block_proj _ _ _ _ y _ (fun e => ?_) (fun e => ?_)
  · refine xblk_apply V c t _ _ ?_ rfl
    show win2_2.index t (0 : Fin 2) * 1024 + 1 * (y 0).val = 1024 * t.val + (y 0).val
    rw [e0]; omega
  · refine (wblk_apply V c t _).trans ?_
    congr 1
    funext a
    apply Fin.ext
    match a with
    | ⟨0, _⟩ => show (y 1).val = win2_2.index t (1 : Fin 2) * 1024 + 1 * (y 1).val; rw [e1]; omega
    | ⟨1, _⟩ => rfl

/-- An index of the output array is in point `t`'s block iff each coordinate is in the block's range on its axis. -/
theorem mem_blk (t : Fin cfg2.N) (i : S8192x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v7).slice (win2_2.rect t)).set ↔ _
  rw [View.set_slice_whole, Rect.mem_set_unit]
  exact Iff.rfl

/-- Every index of the output array is in some point's block: row `r` is in the block of point `r / 1024`. -/
theorem cover (i : S8192x1024.Idx) :
    ∃ t : Fin cfg2.N, (cfg2.win 2).flush t = true ∧ i ∈ ((cfg2.win 2).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, e0, e1⟩ := idx_facts t
  refine ⟨t, flush2_2 t, ?_⟩
  rw [mem_blk]
  intro a
  match a with
  | ⟨0, _⟩ =>
    show win2_2.index t (0 : Fin 2) * 1024 ≤ (i 0).val ∧ (i 0).val < win2_2.index t (0 : Fin 2) * 1024 + 1024
    rw [e0, ht]; omega
  | ⟨1, _⟩ =>
    show win2_2.index t (1 : Fin 2) * 1024 ≤ (i 1).val ∧ (i 1).val < win2_2.index t (1 : Fin 2) * 1024 + 1024
    rw [e1]; omega

/-- The output array after the region: the projection `x · wᵀ` of the input array by the weight matrix. -/
theorem final2 (c : Dev nD) :
    (dat2 (F := Ideal) V c).arrAt 2 cfg2.N = Cert.Attn.proj2 (V c main_v2) (V c main_arg5) :=
  (dat2 V c).arrAt_eq_of_cover 2 _ (fun t _ => flushed_eq V c t) cover

end Cert.KernelIdeal.ProjValue2

end
-- ==== Proof.AttnBody.lean ====
/-
  The arithmetic of the attention kernel's body, read at one element.

  The body stores one value computed from its three loads: a block of queries `[1, 512, 1024]` and a whole batch of keys
  and of values, `[1, 2048, 1024]` each. With the unit axes dropped it forms the scores `q · kᵀ` (a product contracting
  the last axis of both operands) into a zero accumulator, scales them by `2⁻⁵`, takes each row's maximum along the
  lanes, keeps it as a column and broadcasts it back, exponentiates the differences, normalises each row by its sum in
  the same column form, multiplies the normalised weights into the values (a plain product) and puts the unit axis back.

  This module reads that value at `(0, p, e)`. The two products are read as sums over their one contracted coordinate
  (the contraction index is re-indexed by its coordinate); the lane maximum and the lane sum, through their column
  forms, as the fold of `max` and the sum over the row; every other operation acts element by element. The result is
  the specification's `Cert.Attn.blockOut`: the sum over the key rows `j` of the softmax weight of the scaled scores of
  row `p` at `j`, times the value at `(j, e)`.
-/
import proofs.«157109_j67714454388781_2_alg».proof.Proof.Gen.KernelIdeal.Skeleton
import proofs.«157109_j67714454388781_2_alg».proof.Proof.Spec
import proofs.«157109_j67714454388781_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Cert.KernelIdeal Cert.KernelIdeal.Gen Idealize.ShloMosaic Idealize.ShloMosaic.ValueIdx

namespace Cert.KernelIdeal.AttnBody

/-- Operand coordinates of the score product: the left operand's row is the result's row. -/
theorem qk_lhs_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
/-- The left operand's column is the contracted coordinate. -/
theorem qk_lhs_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
/-- The right operand's row is the result's column. -/
theorem qk_rhs_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
/-- The right operand's column is the contracted coordinate. -/
theorem qk_rhs_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The score product into a zero accumulator, read at `(p, j)`: the dot product of row `p` of the left operand with
    row `j` of the right one (both operands are contracted over their last axis). -/
theorem matmul_qk_apply (a : FVec Ideal S512x1024 .bf16) (b : FVec Ideal S2048x1024 .bf16) (p : Fin 512) (j : Fin 2048) :
    matmul dot_S512x1024_S2048x1024_S512x2048_1_1_0_0_n_n none a b (constant (F := Ideal) S512x2048 .f32 0x00000000#32) (ix2 p j)
      = ∑ e : Fin 1024, a (ix2 p e) * b (ix2 j e) := by
  refine (Ideal.matmul_constant_zero_apply dot_S512x1024_S2048x1024_S512x2048_1_1_0_0_n_n none a b (ix2 p j)).trans ?_
  rw [← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 p j) ((ValueIdx.contrEquiv1 dot_S512x1024_S2048x1024_S512x2048_1_1_0_0_n_n 1024 rfl rfl).symm k) = ix2 p k := funext fun c => Fin.ext (by
    match c with
    | ⟨0, _⟩ => exact qk_lhs_0 _ _
    | ⟨1, _⟩ => exact (qk_lhs_1 _ _).trans hk)
  have er : dot_S512x1024_S2048x1024_S512x2048_1_1_0_0_n_n.rhsIdx (ix2 p j) ((ValueIdx.contrEquiv1 dot_S512x1024_S2048x1024_S512x2048_1_1_0_0_n_n 1024 rfl rfl).symm k) = ix2 j k := funext fun c => Fin.ext (by
    match c with
    | ⟨0, _⟩ => exact qk_rhs_0 _ _
    | ⟨1, _⟩ => exact (qk_rhs_1 _ _).trans hk)
  rw [el, er]

/-- Operand coordinates of the output product: the left operand's row is the result's row. -/
theorem av_lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- The left operand's column is the contracted coordinate. -/
theorem av_lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- The right operand's row is the contracted coordinate. -/
theorem av_rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- The right operand's column is the result's column. -/
theorem av_rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The output product into a zero accumulator, read at `(p, e)`: the plain matrix product's sum over the shared axis. -/
theorem matmul_av_apply (a : FVec Ideal S512x2048 .bf16) (b : FVec Ideal S2048x1024 .bf16) (p : Fin 512) (e : Fin 1024) :
    matmul dot_S512x2048_S2048x1024_S512x1024_1_0_0_1_n_n none a b (constant (F := Ideal) S512x1024 .f32 0x00000000#32) (ix2 p e)
      = ∑ j : Fin 2048, a (ix2 p j) * b (ix2 j e) := by
  refine (Ideal.matmul_constant_zero_apply dot_S512x2048_S2048x1024_S512x1024_1_0_0_1_n_n none a b (ix2 p e)).trans ?_
  rw [← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 p e) ((ValueIdx.contrEquiv1 dot_S512x2048_S2048x1024_S512x1024_1_0_0_1_n_n 2048 rfl rfl).symm k) = ix2 p k := funext fun c => Fin.ext (by
    match c with
    | ⟨0, _⟩ => exact av_lhs_0 _ _
    | ⟨1, _⟩ => exact (av_lhs_1 _ _).trans hk)
  have er : dot_S512x2048_S2048x1024_S512x1024_1_0_0_1_n_n.rhsIdx (ix2 p e) ((ValueIdx.contrEquiv1 dot_S512x2048_S2048x1024_S512x1024_1_0_0_1_n_n 2048 rfl rfl).symm k) = ix2 k e := funext fun c => Fin.ext (by
    match c with
    | ⟨0, _⟩ => exact (av_rhs_0 _ _).trans hk
    | ⟨1, _⟩ => exact av_rhs_1 _ _)
  rw [el, er]

/-- The scaled scores as the kernel computes them from the two operands with their unit axes dropped: the score product
    into zero, times the splat of the scale word. -/
def scores (a : FVec Ideal S512x1024 .bf16) (b : FVec Ideal S2048x1024 .bf16) : FVec Ideal S512x2048 .f32 :=
  mulf (matmul dot_S512x1024_S2048x1024_S512x2048_1_1_0_0_n_n none a b (constant (F := Ideal) S512x2048 .f32 0x00000000#32))
    (broadcast S512x2048 (Scalar.ofBits (F := Ideal) .f32 0x3D000000#32))

/-- The unnormalised weights as the kernel computes them from a score matrix: the exponential of each score minus its
    row's maximum, the maximum taken along the lanes, kept as a column and broadcast back along the row. -/
def weights (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl) shapeCasts_S512_S512x1)
    broadcasts_S512x1_S512x2048))

/-- The normalised weights as the kernel computes them: each weight over its row's sum, the sum taken along the lanes,
    kept as a column and broadcast back along the row. -/
def probs (w : FVec Ideal S512x2048 .f32) : FVec Ideal S512x2048 .f32 :=
  divf w (broadcastTo S512x2048 (shapeCast S512x1
    (multiReduction .add [1] S512 w 0x00000000#32 reduces_S512x2048_S512 (.inl rfl) rfl) shapeCasts_S512_S512x1)
    broadcasts_S512x1_S512x2048)

/-- The kernel's stored value is the output product of the normalised weights with the values, with the unit axis put back. -/
theorem pay_eq (x0 : Vec Ideal S1x512x1024 .bf16) (x1 x2 : Vec Ideal S1x2048x1024 .bf16) :
    k3_pay1 (F := Ideal) x0 x1 x2
      = shapeCast S1x512x1024 (matmul dot_S512x2048_S2048x1024_S512x1024_1_0_0_1_n_n none
          (truncf .bf16 (probs (weights (scores
            (shapeCast S512x1024 x0 shapeCasts_S1x512x1024_S512x1024 : FVec Ideal S512x1024 .bf16)
            (shapeCast S2048x1024 x1 shapeCasts_S1x2048x1024_S2048x1024 : FVec Ideal S2048x1024 .bf16)))) bitsLt_bf16_f32 : FVec Ideal S512x2048 .bf16)
          (shapeCast S2048x1024 x2 shapeCasts_S1x2048x1024_S2048x1024 : FVec Ideal S2048x1024 .bf16)
          (constant (F := Ideal) S512x1024 .f32 0x00000000#32))
          shapeCasts_S512x1024_S1x512x1024 := rfl

/-- A scaled score at `(p, j)`: the dot product of row `p` of the left operand with row `j` of the right one, times the scale. -/
theorem scores_apply (a : FVec Ideal S512x1024 .bf16) (b : FVec Ideal S2048x1024 .bf16) (p : Fin 512) (j : Fin 2048) :
    scores a b (ix2 p j) = (∑ e' : Fin 1024, a (ix2 p e') * b (ix2 j e')) * Ideal.ofBits .f32 0x3D000000#32 :=
  congrArg (· * Ideal.ofBits .f32 0x3D000000#32) (matmul_qk_apply a b p j)

/-- The row maximum, kept as a column and broadcast back, read at `(p, j)`: the fold of `max` over row `p`. -/
theorem rowmax_apply (s : FVec Ideal S512x2048 .f32) (p : Fin 512) (j : Fin 2048) :
    broadcastTo S512x2048 (shapeCast S512x1
      (multiReduction .maximumf [1] S512 s 0xFF800000#32 reduces_S512x2048_S512 (.inl rfl) rfl) shapeCasts_S512_S512x1)
      broadcasts_S512x1_S512x2048 (ix2 p j) = Cert.Attn.rowMax (fun j' : Fin 2048 => s (ix2 p j')) :=
  (Cert.Lib.broadcastTo_a1_ab_apply _ _ p j).trans
    ((Cert.Lib.shapeCast_a_a1_apply _ _ p (0 : Fin 1)).trans
      (Cert.Lib.multiReduction_max_row s reduces_S512x2048_S512 (.inl rfl) rfl p))

/-- The row sum, kept as a column and broadcast back, read at `(p, j)`: the sum over row `p`. -/
theorem rowsum_apply (w : FVec Ideal S512x2048 .f32) (p : Fin 512) (j : Fin 2048) :
    broadcastTo S512x2048 (shapeCast S512x1
      (multiReduction .add [1] S512 w 0x00000000#32 reduces_S512x2048_S512 (.inl rfl) rfl) shapeCasts_S512_S512x1)
      broadcasts_S512x1_S512x2048 (ix2 p j) = ∑ j' : Fin 2048, w (ix2 p j') :=
  (Cert.Lib.broadcastTo_a1_ab_apply _ _ p j).trans
    ((Cert.Lib.shapeCast_a_a1_apply _ _ p (0 : Fin 1)).trans
      (Cert.Lib.multiReduction_add_row w reduces_S512x2048_S512 (.inl rfl) rfl p))

/-- An unnormalised weight at `(p, j)` is the row's `expRow` at `j`. -/
theorem weights_apply (s : FVec Ideal S512x2048 .f32) (p : Fin 512) (j : Fin 2048) :
    weights s (ix2 p j) = Cert.Attn.expRow (fun j' : Fin 2048 => s (ix2 p j')) j :=
  congrArg (fun m => Ideal.exp (s (ix2 p j) - m)) (rowmax_apply s p j)

/-- A normalised weight at `(p, j)` is the weight over its row's sum. -/
theorem probs_apply (w : FVec Ideal S512x2048 .f32) (p : Fin 512) (j : Fin 2048) :
    probs w (ix2 p j) = Ideal.div (w (ix2 p j)) (∑ j' : Fin 2048, w (ix2 p j')) :=
  congrArg (Ideal.div (w (ix2 p j))) (rowsum_apply w p j)

/-- The normalised weights of a score matrix at `(p, j)` are the row's softmax weight `attnRow` at `j`. -/
theorem probs_weights_apply (s : FVec Ideal S512x2048 .f32) (p : Fin 512) (j : Fin 2048) :
    probs (weights s) (ix2 p j) = Cert.Attn.attnRow (fun j' : Fin 2048 => s (ix2 p j')) j := by
  refine (probs_apply (weights s) p j).trans ?_
  unfold Cert.Attn.attnRow
  rw [weights_apply s p j]
  exact congrArg (Ideal.div _) (Finset.sum_congr rfl fun j' _ => weights_apply s p j')

/-- THE ATTENTION BODY AT AN INDEX: the value the kernel stores for query row `p` and feature `e` of its block is the
    softmax-weighted sum of the value rows, the weights those of the scaled scores of row `p` against every key row. -/
theorem pay3_apply (x0 : Vec Ideal S1x512x1024 .bf16) (x1 x2 : Vec Ideal S1x2048x1024 .bf16) (p : Fin 512) (e : Fin 1024) :
    k3_pay1 (F := Ideal) x0 x1 x2 (ix3 (0 : Fin 1) p e) = Cert.Attn.blockOut x0 x1 x2 p e := by
  rw [pay_eq]
  refine (shapeCast_ab_1ab_apply _ _ (0 : Fin 1) p e).trans ?_
  refine (matmul_av_apply _ _ p e).trans ?_
  unfold Cert.Attn.blockOut
  refine Finset.sum_congr rfl fun j _ => ?_
  have hs : (fun j' : Fin 2048 => scores
        (shapeCast S512x1024 x0 shapeCasts_S1x512x1024_S512x1024 : FVec Ideal S512x1024 .bf16)
        (shapeCast S2048x1024 x1 shapeCasts_S1x2048x1024_S2048x1024 : FVec Ideal S2048x1024 .bf16) (ix2 p j'))
      = fun j' : Fin 2048 => (∑ e' : Fin 1024, x0 (ix3 (0 : Fin 1) p e') * x1 (ix3 (0 : Fin 1) j' e')) * Ideal.ofBits .f32 0x3D000000#32 :=
    funext fun j' => (scores_apply _ _ p j').trans (congrArg (· * Ideal.ofBits .f32 0x3D000000#32)
      (Finset.sum_congr rfl fun e' _ => by rw [shapeCast_1ab_ab_apply, shapeCast_1ab_ab_apply]))
  rw [← hs, ← probs_weights_apply _ p j, shapeCast_1ab_ab_apply]
  rfl

end Cert.KernelIdeal.AttnBody

end
-- ==== Proof.AttnArray.lean ====
/-
  The attention region's output array, assembled from its blocks.

  The region runs over a 4 × 4 grid of points (b, qi): batch b, query block qi. At a point the body reads one block of
  512 query rows (rows 512·qi … 512·qi + 511 of batch b), the whole batch b of keys and the whole batch b of values, and
  writes one block of 512 output rows to the same place of the output array as the query block's. Given that the body's
  arithmetic at block coordinate (0, p, e) is the softmax-weighted sum `Cert.Attn.blockOut` of the three blocks it read
  (the hypothesis `hpay` below), this module shows that the array the region leaves is `Cert.Attn.attention q k v` of the
  query, key and value arrays the region found (`final3`).

  The argument has three parts. (1) An entry of a block is an entry of the block's array: block coordinate y of the block
  with block index n sits at array coordinate n · (block extent) + y on every axis, so the query block's entry (0, p, e') is
  q[b, 512·qi + p, e'] and the key / value batches' entries (0, j, e') are k[b, j, e'] and v[b, j, e']. (2) With those
  identifications the block formula and the array formula `Cert.Attn.outAt` are the same sum, term by term, so what a point
  writes back is the point's block of the attention array. (3) Every array index (b, i, e) lies in the block of the point
  with block index (b, i / 512, 0), so the blocks cover the array and the array is the attention array everywhere.
-/
import proofs.«157109_j67714454388781_2_alg».proof.Proof.Gen.KernelIdeal.Frame
import proofs.«157109_j67714454388781_2_alg».proof.Proof.Spec
import Idealize.ShloMosaic.Lib.Pipeline.Value
import Idealize.ShloMosaic.Lib.ValueIdx

noncomputable section

namespace Cert.KernelIdeal.AttnArray

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's loads and its store start at the origin of their buffers: the offset triple (0, 0, 0) is the zero function. -/
theorem origin3 : (![0, 0, 0] : Fin 3 → Nat) = fun _ => 0 := funext fun a => by fin_cases a <;> rfl

/-- How the four windows' block indices are related at every grid point, decided over the 16 points: the query block has
    the output block's batch and row-block index; the key and value batches have the output's batch index and are whole
    along the rows; nothing is split along the features; the output's batch and row-block indices are at most 3. -/
theorem block_index_facts : ∀ t : Fin cfg3.N,
    win3_0.index t (0 : Fin 3) = win3_3.index t (0 : Fin 3)
    ∧ win3_0.index t (1 : Fin 3) = win3_3.index t (1 : Fin 3)
    ∧ win3_0.index t (2 : Fin 3) = 0
    ∧ win3_1.index t (0 : Fin 3) = win3_3.index t (0 : Fin 3)
    ∧ win3_1.index t (1 : Fin 3) = 0
    ∧ win3_1.index t (2 : Fin 3) = 0
    ∧ win3_2.index t (0 : Fin 3) = win3_3.index t (0 : Fin 3)
    ∧ win3_2.index t (1 : Fin 3) = 0
    ∧ win3_2.index t (2 : Fin 3) = 0
    ∧ win3_3.index t (0 : Fin 3) ≤ 3
    ∧ win3_3.index t (1 : Fin 3) ≤ 3
    ∧ win3_3.index t (2 : Fin 3) = 0 :=
  (by decide +kernel : ∀ t : Fin grid3.N, _)

/-- Every pair (batch, row block) is the output block index of some grid point. -/
theorem out_block_onto : ∀ (q0 : Fin 4) (q1 : Fin 4), ∃ t : Fin cfg3.N, win3_3.index t = ![q0.val, q1.val, 0] :=
  (by decide +kernel : ∀ (q0 : Fin 4) (q1 : Fin 4), ∃ t : Fin grid3.N, win3_3.index t = ![q0.val, q1.val, 0])

/-- The block formula is the array formula: when row p of the query block is row i of batch b of q, and the key and value
    blocks are batch b of k and v, the softmax-weighted sum over the blocks' entries is `outAt q k v b i e`: the scores, and
    so the weights, agree entry by entry, and so do the value entries they multiply. -/
theorem blockOut_eq_outAt (q k v : Cert.Attn.A3) (x0 : Vec Ideal S1x512x1024 .bf16) (x1 x2 : Vec Ideal S1x2048x1024 .bf16)
    (b : Fin 4) (i : Fin 2048) (p : Fin 512) (e : Fin 1024)
    (h0 : ∀ e' : Fin 1024, x0 (ix3 (0 : Fin 1) p e') = q (ix3 b i e'))
    (h1 : ∀ (j : Fin 2048) (e' : Fin 1024), x1 (ix3 (0 : Fin 1) j e') = k (ix3 b j e'))
    (h2 : ∀ j : Fin 2048, x2 (ix3 (0 : Fin 1) j e) = v (ix3 b j e)) :
    Cert.Attn.blockOut x0 x1 x2 p e = Cert.Attn.outAt q k v b i e := by
  unfold Cert.Attn.blockOut Cert.Attn.outAt Cert.Attn.scoreAt
  simp only [h0, h1, h2]

/-- An entry of the query block at a point is an entry of the query array: block coordinate (0, p, e) of the block with
    block index n sits at array coordinate (n₀, 512 · n₁ + p, 1024 · n₂ + e). -/
theorem query_block_apply (c : Dev nD) (t : Fin cfg3.N) (p : Fin 512) (e : Fin 1024) (a : S4x2048x1024.Idx)
    (h0 : (a 0).val = win3_0.index t (0 : Fin 3)) (h1 : (a 1).val = win3_0.index t (1 : Fin 3) * 512 + p.val)
    (h2 : (a 2).val = win3_0.index t (2 : Fin 3) * 1024 + e.val) :
    (iblk3 V c 0 t : Vec Ideal S1x512x1024 .bf16) (ix3 (0 : Fin 1) p e) = (V c main_v4 : S4x2048x1024.Idx → Elt Ideal .bf16) a := by
  unfold iblk3
  rw [View.read_apply]
  show V c main_v4 _ = V c main_v4 _
  congr 1
  funext d
  apply Fin.ext
  match d with
  | ⟨0, _⟩ => show win3_0.index t (0 : Fin 3) * 1 + 1 * (0 : Fin 1).val = (a 0).val; rw [h0]; simp
  | ⟨1, _⟩ => show win3_0.index t (1 : Fin 3) * 512 + 1 * p.val = (a 1).val; rw [h1]; omega
  | ⟨2, _⟩ => show win3_0.index t (2 : Fin 3) * 1024 + 1 * e.val = (a 2).val; rw [h2]; omega

/-- An entry of the key batch at a point is an entry of the key array: block coordinate (0, j, e) of the block with block
    index n sits at array coordinate (n₀, 2048 · n₁ + j, 1024 · n₂ + e). -/
theorem key_batch_apply (c : Dev nD) (t : Fin cfg3.N) (j : Fin 2048) (e : Fin 1024) (a : S4x2048x1024.Idx)
    (h0 : (a 0).val = win3_1.index t (0 : Fin 3)) (h1 : (a 1).val = win3_1.index t (1 : Fin 3) * 2048 + j.val)
    (h2 : (a 2).val = win3_1.index t (2 : Fin 3) * 1024 + e.val) :
    (iblk3 V c 1 t : Vec Ideal S1x2048x1024 .bf16) (ix3 (0 : Fin 1) j e) = (V c main_v6 : S4x2048x1024.Idx → Elt Ideal .bf16) a := by
  unfold iblk3
  rw [View.read_apply]
  show V c main_v6 _ = V c main_v6 _
  congr 1
  funext d
  apply Fin.ext
  match d with
  | ⟨0, _⟩ => show win3_1.index t (0 : Fin 3) * 1 + 1 * (0 : Fin 1).val = (a 0).val; rw [h0]; simp
  | ⟨1, _⟩ => show win3_1.index t (1 : Fin 3) * 2048 + 1 * j.val = (a 1).val; rw [h1]; omega
  | ⟨2, _⟩ => show win3_1.index t (2 : Fin 3) * 1024 + 1 * e.val = (a 2).val; rw [h2]; omega

/-- An entry of the value batch at a point is an entry of the value array, at the same coordinates as for the keys. -/
theorem value_batch_apply (c : Dev nD) (t : Fin cfg3.N) (j : Fin 2048) (e : Fin 1024) (a : S4x2048x1024.Idx)
    (h0 : (a 0).val = win3_2.index t (0 : Fin 3)) (h1 : (a 1).val = win3_2.index t (1 : Fin 3) * 2048 + j.val)
    (h2 : (a 2).val = win3_2.index t (2 : Fin 3) * 1024 + e.val) :
    (iblk3 V c 2 t : Vec Ideal S1x2048x1024 .bf16) (ix3 (0 : Fin 1) j e) = (V c main_v8 : S4x2048x1024.Idx → Elt Ideal .bf16) a := by
  unfold iblk3
  rw [View.read_apply]
  show V c main_v8 _ = V c main_v8 _
  congr 1
  funext d
  apply Fin.ext
  match d with
  | ⟨0, _⟩ => show win3_2.index t (0 : Fin 3) * 1 + 1 * (0 : Fin 1).val = (a 0).val; rw [h0]; simp
  | ⟨1, _⟩ => show win3_2.index t (1 : Fin 3) * 2048 + 1 * j.val = (a 1).val; rw [h1]; omega
  | ⟨2, _⟩ => show win3_2.index t (2 : Fin 3) * 1024 + 1 * e.val = (a 2).val; rw [h2]; omega

/-- One entry of what the body computes is one entry of the attention array. For any three blocks x0, x1, x2 that are
    row block r of batch b of q and batch b of k and of v, the body's result at block coordinate y is `attention q k v` at
    the array index a = (b, 512 · r + y₁, y₂): split y into its coordinates (the first is 0, the axis has extent 1), read
    the body's arithmetic as the block formula, and identify the block formula with the array formula. -/
theorem payload_eq_attention
    (hpay : ∀ (x0 : Vec Ideal S1x512x1024 .bf16) (x1 x2 : Vec Ideal S1x2048x1024 .bf16) (p : Fin 512) (e : Fin 1024),
      k3_pay1 (F := Ideal) x0 x1 x2 (ix3 (0 : Fin 1) p e) = Cert.Attn.blockOut x0 x1 x2 p e)
    (q k v : Cert.Attn.A3) (x0 : Vec Ideal S1x512x1024 .bf16) (x1 x2 : Vec Ideal S1x2048x1024 .bf16)
    (b : Fin 4) (r : Nat) (y : S1x512x1024.Idx) (a : S4x2048x1024.Idx)
    (ha0 : (a 0).val = b.val) (ha1 : (a 1).val = r * 512 + (y 1).val) (ha2 : (a 2).val = (y 2).val)
    (h0 : ∀ (p : Fin 512) (e' : Fin 1024) (i : Fin 2048), i.val = r * 512 + p.val → x0 (ix3 (0 : Fin 1) p e') = q (ix3 b i e'))
    (h1 : ∀ (j : Fin 2048) (e' : Fin 1024), x1 (ix3 (0 : Fin 1) j e') = k (ix3 b j e'))
    (h2 : ∀ (j : Fin 2048) (e' : Fin 1024), x2 (ix3 (0 : Fin 1) j e') = v (ix3 b j e')) :
    k3_pay1 (F := Ideal) x0 x1 x2 y = Cert.Attn.attention q k v a := by
  obtain ⟨u, p, e, rfl⟩ : ∃ (u : Fin 1) (p : Fin 512) (e : Fin 1024), y = ix3 u p e := ⟨y 0, y 1, y 2, eq_ix3 y⟩
  obtain rfl : u = 0 := Subsingleton.elim _ _
  have ha1' : (a 1).val = r * 512 + p.val := ha1
  have hlt : r * 512 + p.val < 2048 := by have hi : (a 1).val < 2048 := (a 1).isLt; omega
  have ha : a = ix3 b ⟨r * 512 + p.val, hlt⟩ e := by
    funext d
    apply Fin.ext
    match d with
    | ⟨0, _⟩ => exact ha0
    | ⟨1, _⟩ => exact ha1
    | ⟨2, _⟩ => exact ha2
  rw [hpay, ha, Cert.Attn.attention, Cert.Attn.arr3_ix3]
  exact blockOut_eq_outAt q k v x0 x1 x2 b _ p e (fun e' => h0 p e' _ rfl) h1 (fun j => h2 j e)

/-- What a grid point writes back to the output array is that point's block of the attention array of the query, key and
    value arrays the region found: the body's one store fills its buffer with its arithmetic on the three blocks it
    loaded, and entry by entry that arithmetic is the attention array at the entry's place in the array. -/
theorem flushed_eq
    (hpay : ∀ (x0 : Vec Ideal S1x512x1024 .bf16) (x1 x2 : Vec Ideal S1x2048x1024 .bf16) (p : Fin 512) (e : Fin 1024),
      k3_pay1 (F := Ideal) x0 x1 x2 (ix3 (0 : Fin 1) p e) = Cert.Attn.blockOut x0 x1 x2 p e)
    (c : Dev nD) (t : Fin cfg3.N) :
    (dat3 (F := Ideal) V c).flushed 3 t = ((cfg3.win 3).blk t).view.read (Elt Ideal) (Cert.Attn.attention (V c main_v4) (V c main_v6) (V c main_v8)) := by
  show (cfg3.win 3).cut (grid3.coords t) ((dat3 V c).after 3 t) = _
  rw [after3_3]
  unfold out3_3
  rw [View.canon_unit_zero origin3]
  simp only [View.ld_unit_zero (S := S1x512x1024) origin3, View.ld_unit_zero (S := S1x2048x1024) origin3]
  obtain ⟨e0, e1, e2, e3, e4, e5, e6, e7, e8, e9, e10, e11⟩ := block_index_facts t
  funext y
  show k3_pay1 (F := Ideal) (iblk3 V c 0 t) (iblk3 V c 1 t) (iblk3 V c 2 t) y
    = Cert.Attn.attention (V c main_v4) (V c main_v6) (V c main_v8) (((cfg3.win 3).blk t).view.emb y)
  have hy0 : (y 0).val < 1 := (y 0).isLt
  refine payload_eq_attention hpay (V c main_v4) (V c main_v6) (V c main_v8) (iblk3 V c 0 t) (iblk3 V c 1 t) (iblk3 V c 2 t)
    ⟨win3_3.index t (0 : Fin 3), by omega⟩ (win3_3.index t (1 : Fin 3)) y _ ?_ ?_ ?_ ?_ ?_ ?_
  · show win3_3.index t (0 : Fin 3) * 1 + 1 * (y 0).val = win3_3.index t (0 : Fin 3); omega
  · show win3_3.index t (1 : Fin 3) * 512 + 1 * (y 1).val = win3_3.index t (1 : Fin 3) * 512 + (y 1).val; omega
  · show win3_3.index t (2 : Fin 3) * 1024 + 1 * (y 2).val = (y 2).val; omega
  · intro p e' i hi
    refine query_block_apply V c t p e' _ ?_ ?_ ?_
    · show win3_3.index t (0 : Fin 3) = win3_0.index t (0 : Fin 3); omega
    · show i.val = win3_0.index t (1 : Fin 3) * 512 + p.val; omega
    · show e'.val = win3_0.index t (2 : Fin 3) * 1024 + e'.val; omega
  · intro j e'
    refine key_batch_apply V c t j e' _ ?_ ?_ ?_
    · show win3_3.index t (0 : Fin 3) = win3_1.index t (0 : Fin 3); omega
    · show j.val = win3_1.index t (1 : Fin 3) * 2048 + j.val; omega
    · show e'.val = win3_1.index t (2 : Fin 3) * 1024 + e'.val; omega
  · intro j e'
    refine value_batch_apply V c t j e' _ ?_ ?_ ?_
    · show win3_3.index t (0 : Fin 3) = win3_2.index t (0 : Fin 3); omega
    · show j.val = win3_2.index t (1 : Fin 3) * 2048 + j.val; omega
    · show e'.val = win3_2.index t (2 : Fin 3) * 1024 + e'.val; omega

/-- An index of the output array is in a point's block iff, on each axis, its coordinate is within one block extent above
    the block index times the block extent. -/
theorem mem_out_block (t : Fin cfg3.N) (i : S4x2048x1024.Idx) :
    i ∈ ((cfg3.win 3).blk t).view.set ↔ ∀ a : Fin 3, win3_3.index t a * S1x512x1024.size a ≤ (i a).val ∧ (i a).val < win3_3.index t a * S1x512x1024.size a + S1x512x1024.size a := by
  show i ∈ ((View.whole main_v9).slice (win3_3.rect t)).set ↔ _
  rw [View.set_slice_whole, Rect.mem_set_unit]
  exact Iff.rfl

/-- The output blocks cover the output array: the index (b, i, e) is in the block of the point whose block index is
    (b, i / 512, 0), because 512 · (i / 512) ≤ i < 512 · (i / 512) + 512, and every point writes its block back. -/
theorem out_blocks_cover (i : S4x2048x1024.Idx) : ∃ t : Fin cfg3.N, (cfg3.win 3).flush t = true ∧ i ∈ ((cfg3.win 3).blk t).view.set := by
  have hi0 : (i 0).val < 4 := (i 0).isLt
  have hi1 : (i 1).val < 2048 := (i 1).isLt
  have hi2 : (i 2).val < 1024 := (i 2).isLt
  obtain ⟨t, ht⟩ := out_block_onto ⟨(i 0).val, hi0⟩ ⟨(i 1).val / 512, by omega⟩
  have q0 : win3_3.index t (0 : Fin 3) = (i 0).val := congrFun ht 0
  have q1 : win3_3.index t (1 : Fin 3) = (i 1).val / 512 := congrFun ht 1
  have q2 : win3_3.index t (2 : Fin 3) = 0 := congrFun ht 2
  refine ⟨t, flush3_3 t, ?_⟩
  rw [mem_out_block]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 1024 ≤ (i 2).val ∧ (i 2).val < win3_3.index t (2 : Fin 3) * 1024 + 1024; omega

/-- The array the attention region leaves is the softmax attention of the query, key and value arrays it found: each point
    writes its block of that array, and the blocks cover the array. -/
theorem final3
    (hpay : ∀ (x0 : Vec Ideal S1x512x1024 .bf16) (x1 x2 : Vec Ideal S1x2048x1024 .bf16) (p : Fin 512) (e : Fin 1024),
      k3_pay1 (F := Ideal) x0 x1 x2 (ix3 (0 : Fin 1) p e) = Cert.Attn.blockOut x0 x1 x2 p e)
    (c : Dev nD) : (dat3 (F := Ideal) V c).arrAt 3 cfg3.N = Cert.Attn.attention (V c main_v4) (V c main_v6) (V c main_v8) :=
  (dat3 V c).arrAt_eq_of_cover 3 _ (fun t _ => flushed_eq V hpay c t) out_blocks_cover

end Cert.KernelIdeal.AttnArray

end
-- ==== Proof.KernelRun.lean ====
/-
  The idealized kernel's run with its RESULT named: every weakly fair execution of @main terminates, nothing
  faulting, and in the final state the result buffer holds what the last of @main's segment boundaries holds there
  (the fold of the host stretches and of the four regions' write-backs from the launch memory), the six arguments
  being unchanged. Stated at any float instance.
-/
import proofs.«157109_j67714454388781_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its eight segments (four host stretches, four regions): the last thread state holds every
    unscoped buffer at the last boundary's contents, so the final memory is read there — the result buffer at that
    boundary's value, each argument walked back through the fold to its launch contents. -/
theorem run_named : θ_run defs (onTc (τ := τ) (main (F := F))) ⟨m, fun _ => 0, ρ⟩ (fun r => ∀ c : Dev nD,
      r.2.mem ((c.tc : Thread nD τ).loc main_v9) = W8 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v9 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.Fold.lean ====
/-
  From the launch memory to the result buffer: the contents of the buffers the four regions read and write, followed
  through @main's segment boundaries.

  The three reshapes before the first region merge batch and position of each activation array (row `2048 · b + s`);
  each projection region leaves `x · wᵀ` of the merged array in its output; the reshape after it splits the rows again,
  and the merged projection of a merged array, split again, is the projection of the original array. No region and no
  reshape writes a buffer that a later region reads, other than its own result, so each region finds the earlier
  results in place. The attention region then leaves the attention of the three projections in the result buffer.
-/
import proofs.«157109_j67714454388781_2_alg».proof.Proof.Gen.KernelIdeal.Frame
import proofs.«157109_j67714454388781_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.SL.Sem Idealize.ShloMosaic.ValueIdx
open Idealize.ShloMosaic.Pipeline (Dat)
open Cert.Attn

/-! ## Merging and splitting rows commute with a projection -/

/-- The array with batch and position merged, read at row `2048 · b + s`, is the array at `(b, s)`. -/
theorem merge_apply (x : A3) (h : (⟨3, ![4, 2048, 1024]⟩ : Shape).ShapeCasts ⟨2, ![8192, 1024]⟩)
    (b : Fin 4) (s : Fin 2048) (e : Fin 1024) (r : Fin 8192) (hr : r.val = b.val * 2048 + s.val) :
    shapeCast ⟨2, ![8192, 1024]⟩ x h (ix2 r e) = x (ix3 b s e) :=
  shapeCast_apply x h _ _ (by
    rw [Shape.rowMajor_val_two, Shape.rowMajor_val_three]
    show (b.val * 2048 + s.val) * 1024 + e.val = r.val * 1024 + e.val
    rw [hr])

/-- The merged array split again, read at `(b, s)`, is the merged array at row `2048 · b + s`. -/
theorem split_apply (y : A2) (h : (⟨2, ![8192, 1024]⟩ : Shape).ShapeCasts ⟨3, ![4, 2048, 1024]⟩)
    (b : Fin 4) (s : Fin 2048) (o : Fin 1024) (r : Fin 8192) (hr : r.val = b.val * 2048 + s.val) :
    shapeCast ⟨3, ![4, 2048, 1024]⟩ y h (ix3 b s o) = y (ix2 r o) :=
  shapeCast_apply y h _ _ (by
    rw [Shape.rowMajor_val_two, Shape.rowMajor_val_three]
    show r.val * 1024 + o.val = (b.val * 2048 + s.val) * 1024 + o.val
    rw [hr])

/-- Merge the rows, project, split the rows: the projection of the original array. -/
theorem split_proj2_merge (x : A3) (w : W2) (h1 : (⟨3, ![4, 2048, 1024]⟩ : Shape).ShapeCasts ⟨2, ![8192, 1024]⟩)
    (h2 : (⟨2, ![8192, 1024]⟩ : Shape).ShapeCasts ⟨3, ![4, 2048, 1024]⟩) :
    shapeCast ⟨3, ![4, 2048, 1024]⟩ (proj2 (shapeCast ⟨2, ![8192, 1024]⟩ x h1) w) h2 = proj x w := by
  funext i
  obtain ⟨b, s, o, rfl⟩ : ∃ (b : Fin 4) (s : Fin 2048) (o : Fin 1024), i = ix3 b s o := ⟨i 0, i 1, i 2, eq_ix3 i⟩
  have hb := b.isLt
  have hs := s.isLt
  rw [split_apply _ h2 b s o ⟨b.val * 2048 + s.val, by omega⟩ rfl]
  show proj2At _ w _ o = projAt x w b s o
  unfold proj2At projAt
  exact Finset.sum_congr rfl fun e _ => by rw [merge_apply x h1 b s e _ rfl]

/-! ## The buffers at the segment boundaries -/

section Boundaries

variable (m : (ℓ : Loc nD τ sig) → Buf (Elt Ideal) ℓ) (ρ : Dev nD → PrngReg)

/-- Entering the first region, the three merged activation arrays are the arguments with their rows merged. -/
theorem V1_v0 (c : Dev nD) : V1 m ρ c main_v0
    = shapeCast S8192x1024 (m ((c : Thread nD τ).loc main_arg0)) Facts₀.shapeCasts_S4x2048x1024_S8192x1024 := by
  show StableHlo.after hostOps0 (W0 m ρ c) (Proc.devRef .tc main_v0) = _
  after_results
  rfl
theorem W1_v1 (c : Dev nD) : W1 m ρ c (Proc.devRef .tc main_v1)
    = shapeCast S8192x1024 (m ((c : Thread nD τ).loc main_arg1)) Facts₀.shapeCasts_S4x2048x1024_S8192x1024 := by
  show StableHlo.after hostOps0 (W0 m ρ c) (Proc.devRef .tc main_v1) = _
  after_results
  rfl
theorem W1_v2 (c : Dev nD) : W1 m ρ c (Proc.devRef .tc main_v2)
    = shapeCast S8192x1024 (m ((c : Thread nD τ).loc main_arg2)) Facts₀.shapeCasts_S4x2048x1024_S8192x1024 := by
  show StableHlo.after hostOps0 (W0 m ρ c) (Proc.devRef .tc main_v2) = _
  after_results
  rfl
theorem V1_arg3 (c : Dev nD) : V1 m ρ c main_arg3 = m ((c : Thread nD τ).loc main_arg3) := by
  show StableHlo.after hostOps0 (W0 m ρ c) (Proc.devRef .tc main_arg3) = _
  after_results

/-! ### What each region leaves and finds

`hp0`, `hp1`, `hp2`, `hat`: what the four regions leave in their output arrays, as functions of the contents they
are entered with (proved separately, region by region). -/

variable (hp0 : ∀ (V : (c : Dev nD) → (b : Ref sig .tc) → Buf (Elt Ideal) ((c : Thread nD τ).loc b)) (c : Dev nD),
    (dat0 (F := Ideal) V c).arrAt 2 cfg0.N = proj2 (V c main_v0) (V c main_arg3))
variable (hp1 : ∀ (V : (c : Dev nD) → (b : Ref sig .tc) → Buf (Elt Ideal) ((c : Thread nD τ).loc b)) (c : Dev nD),
    (dat1 (F := Ideal) V c).arrAt 2 cfg1.N = proj2 (V c main_v1) (V c main_arg4))
variable (hp2 : ∀ (V : (c : Dev nD) → (b : Ref sig .tc) → Buf (Elt Ideal) ((c : Thread nD τ).loc b)) (c : Dev nD),
    (dat2 (F := Ideal) V c).arrAt 2 cfg2.N = proj2 (V c main_v2) (V c main_arg5))
variable (hat : ∀ (V : (c : Dev nD) → (b : Ref sig .tc) → Buf (Elt Ideal) ((c : Thread nD τ).loc b)) (c : Dev nD),
    (dat3 (F := Ideal) V c).arrAt 3 cfg3.N = attention (V c main_v4) (V c main_v6) (V c main_v8))

include hp0 in
/-- After the first region its output holds the merged projection of the queries. -/
theorem W2_v3 (c : Dev nD) : W2 m ρ c (Proc.devRef .tc main_v3)
    = proj2 (shapeCast S8192x1024 (m ((c : Thread nD τ).loc main_arg0)) Facts₀.shapeCasts_S4x2048x1024_S8192x1024)
        (m ((c : Thread nD τ).loc main_arg3)) := by
  refine (W2_arr m ρ c 2).trans ?_
  rw [hp0 (V1 m ρ) c, V1_v0, V1_arg3]

include hp0 in
/-- Split again, it is the projection of the queries; nothing later writes that buffer. -/
theorem W3_v4 (c : Dev nD) : W3 m ρ c (Proc.devRef .tc main_v4)
    = proj (m ((c : Thread nD τ).loc main_arg0)) (m ((c : Thread nD τ).loc main_arg3)) := by
  have e : W3 m ρ c (Proc.devRef .tc main_v4)
      = shapeCast S4x2048x1024 (W2 m ρ c (Proc.devRef .tc main_v3)) Facts₀.shapeCasts_S8192x1024_S4x2048x1024 := by
    show StableHlo.after hostOps1 (W2 m ρ c) (Proc.devRef .tc main_v4) = _
    after_results
    rfl
  rw [e, W2_v3 m ρ hp0 c]
  exact split_proj2_merge _ _ _ _

/-- The merged keys and their weights reach the second region untouched. -/
theorem V3_v1 (c : Dev nD) : V3 m ρ c main_v1
    = shapeCast S8192x1024 (m ((c : Thread nD τ).loc main_arg1)) Facts₀.shapeCasts_S4x2048x1024_S8192x1024 := by
  have e : V3 m ρ c main_v1 = W2 m ρ c (Proc.devRef .tc main_v1) := by
    show StableHlo.after hostOps1 (W2 m ρ c) (Proc.devRef .tc main_v1) = _
    after_results
  rw [e, W2_of_ne m ρ c main_v1 (by decide), W1_v1]
theorem V3_arg4 (c : Dev nD) : V3 m ρ c main_arg4 = m ((c : Thread nD τ).loc main_arg4) := by
  have e : V3 m ρ c main_arg4 = W2 m ρ c (Proc.devRef .tc main_arg4) := by
    show StableHlo.after hostOps1 (W2 m ρ c) (Proc.devRef .tc main_arg4) = _
    after_results
  rw [e, W2_of_ne m ρ c main_arg4 (by decide)]
  show StableHlo.after hostOps0 (W0 m ρ c) (Proc.devRef .tc main_arg4) = _
  after_results

include hp1 in
theorem W4_v5 (c : Dev nD) : W4 m ρ c (Proc.devRef .tc main_v5)
    = proj2 (shapeCast S8192x1024 (m ((c : Thread nD τ).loc main_arg1)) Facts₀.shapeCasts_S4x2048x1024_S8192x1024)
        (m ((c : Thread nD τ).loc main_arg4)) := by
  refine (W4_arr m ρ c 2).trans ?_
  rw [hp1 (V3 m ρ) c, V3_v1, V3_arg4]

include hp1 in
theorem W5_v6 (c : Dev nD) : W5 m ρ c (Proc.devRef .tc main_v6)
    = proj (m ((c : Thread nD τ).loc main_arg1)) (m ((c : Thread nD τ).loc main_arg4)) := by
  have e : W5 m ρ c (Proc.devRef .tc main_v6)
      = shapeCast S4x2048x1024 (W4 m ρ c (Proc.devRef .tc main_v5)) Facts₀.shapeCasts_S8192x1024_S4x2048x1024 := by
    show StableHlo.after hostOps2 (W4 m ρ c) (Proc.devRef .tc main_v6) = _
    after_results
    rfl
  rw [e, W4_v5 m ρ hp1 c]
  exact split_proj2_merge _ _ _ _

include hp0 in
theorem W5_v4 (c : Dev nD) : W5 m ρ c (Proc.devRef .tc main_v4)
    = proj (m ((c : Thread nD τ).loc main_arg0)) (m ((c : Thread nD τ).loc main_arg3)) := by
  have e : W5 m ρ c (Proc.devRef .tc main_v4) = W4 m ρ c (Proc.devRef .tc main_v4) := by
    show StableHlo.after hostOps2 (W4 m ρ c) (Proc.devRef .tc main_v4) = _
    after_results
  rw [e, W4_of_ne m ρ c main_v4 (by decide)]
  exact W3_v4 m ρ hp0 c

/-- The merged values and their weights reach the third region untouched. -/
theorem V5_v2 (c : Dev nD) : V5 m ρ c main_v2
    = shapeCast S8192x1024 (m ((c : Thread nD τ).loc main_arg2)) Facts₀.shapeCasts_S4x2048x1024_S8192x1024 := by
  have e5 : V5 m ρ c main_v2 = W4 m ρ c (Proc.devRef .tc main_v2) := by
    show StableHlo.after hostOps2 (W4 m ρ c) (Proc.devRef .tc main_v2) = _
    after_results
  have e3 : W3 m ρ c (Proc.devRef .tc main_v2) = W2 m ρ c (Proc.devRef .tc main_v2) := by
    show StableHlo.after hostOps1 (W2 m ρ c) (Proc.devRef .tc main_v2) = _
    after_results
  rw [e5, W4_of_ne m ρ c main_v2 (by decide), e3, W2_of_ne m ρ c main_v2 (by decide), W1_v2]
theorem V5_arg5 (c : Dev nD) : V5 m ρ c main_arg5 = m ((c : Thread nD τ).loc main_arg5) := by
  have e5 : V5 m ρ c main_arg5 = W4 m ρ c (Proc.devRef .tc main_arg5) := by
    show StableHlo.after hostOps2 (W4 m ρ c) (Proc.devRef .tc main_arg5) = _
    after_results
  have e3 : W3 m ρ c (Proc.devRef .tc main_arg5) = W2 m ρ c (Proc.devRef .tc main_arg5) := by
    show StableHlo.after hostOps1 (W2 m ρ c) (Proc.devRef .tc main_arg5) = _
    after_results
  rw [e5, W4_of_ne m ρ c main_arg5 (by decide), e3, W2_of_ne m ρ c main_arg5 (by decide)]
  show StableHlo.after hostOps0 (W0 m ρ c) (Proc.devRef .tc main_arg5) = _
  after_results

include hp2 in
theorem W6_v7 (c : Dev nD) : W6 m ρ c (Proc.devRef .tc main_v7)
    = proj2 (shapeCast S8192x1024 (m ((c : Thread nD τ).loc main_arg2)) Facts₀.shapeCasts_S4x2048x1024_S8192x1024)
        (m ((c : Thread nD τ).loc main_arg5)) := by
  refine (W6_arr m ρ c 2).trans ?_
  rw [hp2 (V5 m ρ) c, V5_v2, V5_arg5]

include hp2 in
/-- Entering the attention region, the three projections are in place. -/
theorem V7_v8 (c : Dev nD) : V7 m ρ c main_v8
    = proj (m ((c : Thread nD τ).loc main_arg2)) (m ((c : Thread nD τ).loc main_arg5)) := by
  have e : V7 m ρ c main_v8
      = shapeCast S4x2048x1024 (W6 m ρ c (Proc.devRef .tc main_v7)) Facts₀.shapeCasts_S8192x1024_S4x2048x1024 := by
    show StableHlo.after hostOps3 (W6 m ρ c) (Proc.devRef .tc main_v8) = _
    after_results
    rfl
  rw [e, W6_v7 m ρ hp2 c]
  exact split_proj2_merge _ _ _ _

include hp0 in
theorem V7_v4 (c : Dev nD) : V7 m ρ c main_v4
    = proj (m ((c : Thread nD τ).loc main_arg0)) (m ((c : Thread nD τ).loc main_arg3)) := by
  have e : V7 m ρ c main_v4 = W6 m ρ c (Proc.devRef .tc main_v4) := by
    show StableHlo.after hostOps3 (W6 m ρ c) (Proc.devRef .tc main_v4) = _
    after_results
  rw [e, W6_of_ne m ρ c main_v4 (by decide)]
  exact W5_v4 m ρ hp0 c

include hp1 in
theorem V7_v6 (c : Dev nD) : V7 m ρ c main_v6
    = proj (m ((c : Thread nD τ).loc main_arg1)) (m ((c : Thread nD τ).loc main_arg4)) := by
  have e : V7 m ρ c main_v6 = W6 m ρ c (Proc.devRef .tc main_v6) := by
    show StableHlo.after hostOps3 (W6 m ρ c) (Proc.devRef .tc main_v6) = _
    after_results
  rw [e, W6_of_ne m ρ c main_v6 (by decide)]
  exact W5_v6 m ρ hp1 c

include hp0 hp1 hp2 hat in
/-- THE RESULT: at the last boundary the result buffer holds the attention of the three projections of the arguments. -/
theorem result_eq (c : Dev nD) : W8 m ρ c (Proc.devRef .tc main_v9)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 3).trans ?_
  rw [hat (V7 m ρ) c, V7_v4 m ρ hp0 c, V7_v6 m ρ hp1 c, V7_v8 m ρ hp2 c]
  rfl

end Boundaries

end Cert.KernelIdeal.KFold

end
-- ==== Proof.lean ====
/-
  The proof of `Cert.Claim`: the kernel (three bf16 projections `x · wᵀ` of queries, keys and values, then exact
  softmax attention, each a tiled pallas_call) against the jnp reference (three einsum projections, scores divided by
  `sqrt 1024`, `jax.nn.softmax`, a final einsum).

  At the ideal instance a change of float format is the identity and a matrix product is a plain finite sum, so both
  programs compute, entry by entry, `∑ j, softmax_j((q_i · k_j) / 32) · v_j` of the projected arrays: the kernel
  multiplies the scores by `2⁻⁵` where the reference divides by `sqrt 1024 = 32`, both take the row maximum as a fold
  of `max` from `-∞` (the reference once more against `-∞`, which changes nothing), both exponentiate, sum and divide.
  No finiteness is needed: every step is an identity on the extended reals.

  The pieces: `Spec` states that function `G` of the six arguments; `RefValue` shows the reference's run ends at `G`;
  `ProjValue0/1/2` and `AttnArray` (over `AttnBody`, the attention body's arithmetic) give each region's output array
  from the contents it is entered with; `Fold` follows the buffers through @main's segment boundaries; `KernelRun` is
  the kernel's run with its result named. The three frames are the generated ones (the reference's frame is its
  generated run with the result dropped); the idealization rewrote nothing, so `preserves` is trivial.
-/
import proofs.«157109_j67714454388781_2_alg».proof.Defs
import proofs.«157109_j67714454388781_2_alg».proof.Proof.Gen.Kernel
import proofs.«157109_j67714454388781_2_alg».proof.Proof.Gen.Kernel.Skeleton
import proofs.«157109_j67714454388781_2_alg».proof.Proof.Gen.Kernel.Launch
import proofs.«157109_j67714454388781_2_alg».proof.Proof.Gen.Kernel.Points
import proofs.«157109_j67714454388781_2_alg».proof.Proof.Gen.Kernel.Frame
import proofs.«157109_j67714454388781_2_alg».proof.Proof.Gen.KernelIdeal
import proofs.«157109_j67714454388781_2_alg».proof.Proof.Gen.KernelIdeal.Skeleton
import proofs.«157109_j67714454388781_2_alg».proof.Proof.Gen.KernelIdeal.Launch
import proofs.«157109_j67714454388781_2_alg».proof.Proof.Gen.KernelIdeal.Points
import proofs.«157109_j67714454388781_2_alg».proof.Proof.Gen.KernelIdeal.Frame
import proofs.«157109_j67714454388781_2_alg».proof.Proof.Gen.ReferenceIdeal
import proofs.«157109_j67714454388781_2_alg».proof.Proof.Gen.Pre_finite_inputs
import proofs.«157109_j67714454388781_2_alg».proof.Proof.Gen.ReferenceIdeal.Read
import proofs.«157109_j67714454388781_2_alg».proof.Proof.Spec
import proofs.«157109_j67714454388781_2_alg».proof.Proof.RefValue
import proofs.«157109_j67714454388781_2_alg».proof.Proof.ProjValue0
import proofs.«157109_j67714454388781_2_alg».proof.Proof.ProjValue1
import proofs.«157109_j67714454388781_2_alg».proof.Proof.ProjValue2
import proofs.«157109_j67714454388781_2_alg».proof.Proof.AttnBody
import proofs.«157109_j67714454388781_2_alg».proof.Proof.AttnArray
import proofs.«157109_j67714454388781_2_alg».proof.Proof.KernelRun
import proofs.«157109_j67714454388781_2_alg».proof.Proof.Fold
import Idealize.ShloMosaic.Adequacy
import Idealize.ShloMosaic.Init

noncomputable section

namespace Cert.Proof

open Idealize.ShloMosaic Idealize.ShloMosaic.TcCoe Idealize.SL.Sem

/-- The word-level kernel's frame: generated. -/
theorem frame_k [Cert.Kernel.Facts] [Cert.Pre_finite_inputs.Facts] : Cert.frame_Kernel :=
  fun m ρ _ => Cert.Kernel.Gen.frame m ρ

/-- The idealized kernel's frame: generated. -/
theorem frame_ki [Cert.KernelIdeal.Facts] [Cert.Pre_finite_inputs.Facts] : Cert.frame_KernelIdeal :=
  fun m ρ _ => Cert.KernelIdeal.Gen.frame m ρ

/-- The reference's frame: its generated run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

section
open Cert.KernelIdeal

/-- Both idealized programs end with `G` of the arguments in their result buffers: the kernel by its named run and the
    fold through its segment boundaries over the four regions' output arrays, the reference by its generated run read
    as `G`; the arguments agree by hypothesis. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Attn.G (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)), ?_, ?_⟩
  · exact (θ_run Cert.KernelIdeal.defs _ _).mono
      (fun r h c => ⟨(h c).1.trans (Cert.KernelIdeal.KFold.result_eq m ρ
          Cert.KernelIdeal.ProjValue0.final0 Cert.KernelIdeal.ProjValue1.final1 Cert.KernelIdeal.ProjValue2.final2
          (fun V c => Cert.KernelIdeal.AttnArray.final3 V Cert.KernelIdeal.AttnBody.pay3_apply c) c), (h c).2⟩)
      (Cert.KernelIdeal.KRun.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v18_eq, Cert.RefValue.ref_eq, (hagree c).1, (hagree c).2.1,
      (hagree c).2.2.1, (hagree c).2.2.2.1, (hagree c).2.2.2.2.1, (hagree c).2.2.2.2.2]

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
